-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8x1x8192 : Shape := ⟨3, ![8, 1, 8192]⟩
abbrev S1x8192 : Shape := ⟨2, ![1, 8192]⟩
abbrev S1024x1024 : Shape := ⟨2, ![1024, 1024]⟩
abbrev S1024x1 : Shape := ⟨2, ![1024, 1]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 49
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x1, .f32⟩
  | .hbm, ⟨25, _⟩ => ⟨S8192x1, .f32⟩
  | .hbm, ⟨26, _⟩ => ⟨S8x1x8192, .f32⟩
  | .hbm, ⟨27, _⟩ => ⟨S_, .f32⟩
  | .hbm, ⟨28, _⟩ => ⟨S1x8192, .f32⟩
  | .hbm, ⟨29, _⟩ => ⟨S1x8192, .f32⟩
  | .hbm, ⟨30, _⟩ => ⟨S_, .f32⟩
  | .hbm, ⟨31, _⟩ => ⟨S1x8192, .f32⟩
  | .hbm, ⟨32, _⟩ => ⟨S1x8192, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1x1x1024, .f32⟩
  | .local _ .vmem, ⟨9, _⟩ => ⟨S1x1x1024, .f32⟩
  | .local _ .vmem, ⟨10, _⟩ => ⟨S1024x1, .f32⟩
  | .local _ .vmem, ⟨11, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_cst_1 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_cst_2 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18_0 : Ref sig .tc := ⟨.hbm, 24, rfl⟩
abbrev main_call0_v18_1 : Ref sig .tc := ⟨.hbm, 25, rfl⟩
abbrev main_call0_v18_2 : Ref sig .tc := ⟨.hbm, 26, rfl⟩
abbrev main_call0_cst_3 : Ref sig .tc := ⟨.hbm, 27, rfl⟩
abbrev main_call0_v19 : Ref sig .tc := ⟨.hbm, 28, rfl⟩
abbrev main_call0_v20 : Ref sig .tc := ⟨.hbm, 29, rfl⟩
abbrev main_call0_cst_4 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_cst_5 : Ref sig .tc := ⟨.hbm, 35, rfl⟩
abbrev main_call0_v25 : Ref sig .tc := ⟨.hbm, 36, rfl⟩
abbrev main_call0_cst_6 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_cst_7 : Ref sig .tc := ⟨.hbm, 41, rfl⟩
abbrev main_call0_v29 : Ref sig .tc := ⟨.hbm, 42, rfl⟩
abbrev main_call0_cst_8 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_cst_9 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  reducesTo_S8x1x8192_S1x8192_d0 : S8x1x8192.ReducesTo [0] S1x8192
  bcast_S_S1x8192 : S_.BroadcastsInDim S1x8192 (![] : Fin 0 → Fin S1x8192.rank)
  shapeCasts_S1x8192_S8192x1 : S1x8192.ShapeCasts S8192x1
  reducesTo_S8192x1_S_d0_1 : S8192x1.ReducesTo [0, 1] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  iota_S1024x1024_d0_w32 : S1024x1024.Iotas .tc 32 [0]
  iota_S1024x1024_d1_w32 : S1024x1024.Iotas .tc 32 [1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x8192.size a
  hwx0_4 : ∀ i : grid0.Coords, EltTy.bits .f32 = 32 ∨ (Rect.block (s := S8x1x8192) S1x1x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_call0_v16) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v18_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v18_1) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v18_2) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond3 i == 1#1) | 3 => fun i => !(k0_cond3 i == 1#1) | 4 => fun _ => false | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S8192x2 : Shape := ⟨2, ![8192, 2]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192, .i32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x1, .i32⟩
  | .hbm, ⟨74, _⟩ => ⟨S8192x2, .i32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .i32⟩
  | .hbm, ⟨82, _⟩ => ⟨S8192, .i32⟩
  | .hbm, ⟨83, _⟩ => ⟨S8192, .i1⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S8192, .i32⟩
  | .hbm, ⟨88, _⟩ => ⟨S_, .i32⟩
  | .hbm, ⟨89, _⟩ => ⟨S8192, .i32⟩
  | .hbm, ⟨90, _⟩ => ⟨S8192, .i1⟩
  | .hbm, ⟨91, _⟩ => ⟨S_, .i32⟩
  | .hbm, ⟨92, _⟩ => ⟨S8192, .i32⟩
  | .hbm, ⟨93, _⟩ => ⟨S8192, .i32⟩
  | .hbm, ⟨94, _⟩ => ⟨S8192, .i32⟩
  | .hbm, ⟨95, _⟩ => ⟨S8192x1, .i32⟩
  | .hbm, ⟨96, _⟩ => ⟨S8192x1, .i32⟩
  | .hbm, ⟨97, _⟩ => ⟨S8192x2, .i32⟩
  | .hbm, ⟨98, _⟩ => ⟨S8192, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v20 : Ref sig .tc := ⟨.hbm, 41, rfl⟩
abbrev main_v21 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v22 : Ref sig .tc := ⟨.hbm, 57, rfl⟩
abbrev main_c : Ref sig .tc := ⟨.hbm, 58, rfl⟩
abbrev main_v23 : Ref sig .tc := ⟨.hbm, 59, rfl⟩
abbrev main_v24 : Ref sig .tc := ⟨.hbm, 60, rfl⟩
abbrev main_c_4 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_5 : Ref sig .tc := ⟨.hbm, 65, rfl⟩
abbrev main_v28 : Ref sig .tc := ⟨.hbm, 66, rfl⟩
abbrev main_v29 : Ref sig .tc := ⟨.hbm, 67, rfl⟩
abbrev main_c_6 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_7 : Ref sig .tc := ⟨.hbm, 76, rfl⟩
abbrev main_v37 : Ref sig .tc := ⟨.hbm, 77, rfl⟩
abbrev main_cst_8 : Ref sig .tc := ⟨.hbm, 78, rfl⟩
abbrev main_v38 : Ref sig .tc := ⟨.hbm, 79, rfl⟩
abbrev main_v39 : Ref sig .tc := ⟨.hbm, 80, rfl⟩
abbrev main_c_9 : Ref sig .tc := ⟨.hbm, 81, rfl⟩
abbrev main_v40 : Ref sig .tc := ⟨.hbm, 82, rfl⟩
abbrev main_v41 : Ref sig .tc := ⟨.hbm, 83, rfl⟩
abbrev main_c_10 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_c_11 : Ref sig .tc := ⟨.hbm, 88, rfl⟩
abbrev main_v45 : Ref sig .tc := ⟨.hbm, 89, rfl⟩
abbrev main_v46 : Ref sig .tc := ⟨.hbm, 90, rfl⟩
abbrev main_c_12 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_13 : Ref sig .tc := ⟨.hbm, 99, rfl⟩
abbrev main_v54 : Ref sig .tc := ⟨.hbm, 100, rfl⟩
abbrev main_cst_14 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_15 : Ref sig .tc := ⟨.hbm, 105, rfl⟩
abbrev main_v58 : Ref sig .tc := ⟨.hbm, 106, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  transposes_S8192x8192_S8192x8192_1_0 : S8192x8192.Transposes [1, 0] S8192x8192
  concatenates_S8192x1_S8192x1_S8192x2_d1 : Shape.Concatenates [S8192x1, S8192x1] S8192x2 1
  reducesTo_S8192_S_d0 : S8192.ReducesTo [0] S_
  dot_S8192x1024_S8192x1024_S8192x8192_1_1_0_0_n_n_wf : DotDims.WF S8192x1024 S8192x1024 S8192x8192 [1] [1] [0] [0] [] []
  gather_S8192x8192_S8192x2_S8192_n_01_n_n_01_1_11_wf : GatherDims.WF S8192x8192 S8192x2 S8192 [] [0, 1] [] [0, 1] [] 1 ![1, 1]

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.Spec.lean ====
/-
  The symmetric contrastive loss of two embedding matrices, over the extended reals, written twice:
  once the way a single tiled sweep collects it (a fixed shift inside every exponential, row sums and
  column sums of the same shifted exponentials), once the textbook way (a row-wise log-softmax of the
  similarity matrix and of its transpose, each shifted by the row's maximum).  Both are functions of
  the two RAW argument matrices through the same row normalisation `nrm`.
  Rows are indexed by `Fin 8192`, features by `Fin 1024`.
-/
import Idealize.ShloMosaic.PureOps.Ideal
import Idealize.ShloMosaic.Lib.ValueIdx

noncomputable section

open scoped BigOperators

namespace Cert.Spec

open Idealize.ShloMosaic

/-- The literals both programs use, as the extended reals their words denote. -/
abbrev zero32 : EReal := Ideal.ofBits .f32 0x00000000#32
abbrev two : EReal := Ideal.ofBits .f32 0x40000000#32
abbrev three : EReal := Ideal.ofBits .f32 0x40400000#32
abbrev half : EReal := Ideal.ofBits .f32 0x3F000000#32
abbrev nRows : EReal := Ideal.ofBits .f32 0x46000000#32
abbrev tiny : EReal := Ideal.ofBits .f32 0x2B8CBCCC#32
abbrev negInf : EReal := Ideal.ofBits .f32 0xFF800000#32

/-- A rank-2 array of 8192 rows and 1024 features, read by its two coordinates. -/
def mat (a : (⟨2, ![8192, 1024]⟩ : Shape).Idx → EReal) : Fin 8192 → Fin 1024 → EReal :=
  fun i d => a (ValueIdx.ix2 i d)

/-- A row divided by its Euclidean norm, the norm floored at `tiny`. -/
def nrm (A : Fin 8192 → Fin 1024 → EReal) (i : Fin 8192) (d : Fin 1024) : EReal :=
  Ideal.div (A i d) (max (Ideal.sqrt (∑ e : Fin 1024, A i e * A i e)) tiny)

/-- The inner product of row `i` of `X` with row `j` of `Y`. -/
def dot (X Y : Fin 8192 → Fin 1024 → EReal) (i j : Fin 8192) : EReal :=
  ∑ d : Fin 1024, X i d * Y j d

/-! ## The swept form -/

/-- The similarity as the sweep scales it: the inner product times two. -/
def simK (X Y : Fin 8192 → Fin 1024 → EReal) (i j : Fin 8192) : EReal := dot X Y i j * two

/-- The shifted exponential of an entry. -/
def expK (X Y : Fin 8192 → Fin 1024 → EReal) (i j : Fin 8192) : EReal :=
  Ideal.exp (simK X Y i j - three)

/-- Row `i`'s log-sum-exp: the logarithm of the row sum of shifted exponentials, the shift added back. -/
def rowLseK (X Y : Fin 8192 → Fin 1024 → EReal) (i : Fin 8192) : EReal :=
  Ideal.log (∑ j : Fin 8192, expK X Y i j) + three

/-- Column `j`'s log-sum-exp, from the column sum of the same shifted exponentials. -/
def colLseK (X Y : Fin 8192 → Fin 1024 → EReal) (j : Fin 8192) : EReal :=
  Ideal.log (∑ i : Fin 8192, expK X Y i j) + three

/-- The loss as the sweep assembles it. -/
def lossK (X Y : Fin 8192 → Fin 1024 → EReal) : EReal :=
  (-(Ideal.div (∑ i : Fin 8192, (simK X Y i i - rowLseK X Y i)) nRows)
    + -(Ideal.div (∑ i : Fin 8192, (simK X Y i i - colLseK X Y i)) nRows)) * half

/-! ## The textbook form -/

/-- The similarity as the textbook divides it: the inner product over one half. -/
def simR (X Y : Fin 8192 → Fin 1024 → EReal) (i j : Fin 8192) : EReal := Ideal.div (dot X Y i j) half

/-- The largest entry of row `i` of a square matrix, folded from `-∞`. -/
def rowMax (A : Fin 8192 → Fin 8192 → EReal) (i : Fin 8192) : EReal :=
  (Finset.univ : Finset (Fin 8192)).fold max negInf (fun k => A i k)

/-- The row-wise log-softmax of a square matrix: every entry minus its row's maximum, minus the logarithm
    of the row sum of the exponentials of those differences. -/
def logSoftmax (A : Fin 8192 → Fin 8192 → EReal) (i j : Fin 8192) : EReal :=
  (A i j - max negInf (rowMax A i))
    - Ideal.log (∑ k : Fin 8192, Ideal.exp (A i k - max negInf (rowMax A i)))

/-- The loss as the textbook assembles it: minus the mean of the diagonal of the log-softmax, of the
    similarity matrix and of its transpose, averaged. -/
def lossR (X Y : Fin 8192 → Fin 1024 → EReal) : EReal :=
  (-(Ideal.div (∑ i : Fin 8192, logSoftmax (simR X Y) i i) nRows)
    + -(Ideal.div (∑ i : Fin 8192, logSoftmax (fun a b => simR X Y b a) i i) nRows)) * half

end Cert.Spec

end
-- ==== Proof.LibFinite.lean ====
/-
  Real-valued extended reals, and the operations that keep them real.

  An extended real is REAL when it is neither of the two infinities. Sums, differences,
  products, maxima and finite sums of real numbers are real; so is a quotient by a real
  number other than zero, a real power of a real base, and the reciprocal square root of a
  positive real. An array operation that only moves entries (a gather, a slice, a transpose, a
  reshape, a broadcast, a concatenation) yields entries of its operands, so it keeps an
  all-real array all-real; an accumulating scatter, a sum along an axis and a matrix product
  add and multiply finitely many entries, so they do too. The float words whose exponent field
  is not all ones denote real numbers.
-/
import Idealize.ShloMosaic.PureOps.Ideal
import Idealize.ShloMosaic.PureOps.Ideal.Laws
import Idealize.ShloMosaic.Lib.ValueIdx
import Idealize.ShloMosaic.Lib.IdealHost

open scoped BigOperators

namespace Cert.Math

open Idealize.ShloMosaic

/-- An extended real that is a real number. -/
def IsReal (x : EReal) : Prop := ∃ r : ℝ, x = r

/-- A family of extended reals all of whose entries are real numbers. -/
def AllReal {ι : Sort*} (v : ι → EReal) : Prop := ∀ i, IsReal (v i)

theorem isReal_coe (r : ℝ) : IsReal (r : EReal) := ⟨r, rfl⟩
theorem isReal_zero : IsReal 0 := ⟨0, rfl⟩
theorem isReal_one : IsReal 1 := ⟨1, rfl⟩

/-- Real means: neither infinity. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.ne_bot {x : EReal} (h : IsReal x) : x ≠ ⊥ := (isReal_iff.mp h).1
theorem IsReal.ne_top {x : EReal} (h : IsReal x) : x ≠ ⊤ := (isReal_iff.mp h).2

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- A finite sum of real numbers is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The quotient of a real number by a real number other than zero is real. -/
theorem IsReal.div_coe {x : EReal} (hx : IsReal x) {c : ℝ} (hc : c ≠ 0) : IsReal (Ideal.div x (c : EReal)) := by
  rw [Ideal.div_coe hc]; exact hx.mul (isReal_coe _)

/-- A real power of a real base is real (Mathlib's `Real.rpow`, total). -/
theorem isReal_pow_coe (x y : ℝ) : IsReal (Ideal.pow (x : EReal) (y : EReal)) := ⟨Real.rpow x y, rfl⟩
theorem IsReal.pow {x y : EReal} (hx : IsReal x) (hy : IsReal y) : IsReal (Ideal.pow x y) := by
  obtain ⟨a, rfl⟩ := hx; obtain ⟨b, rfl⟩ := hy; exact isReal_pow_coe a b

/-- A real power of a positive base is a positive real. -/
theorem pow_coe_pos {x : ℝ} (hx : 0 < x) (y : ℝ) : ∃ r : ℝ, 0 < r ∧ Ideal.pow (x : EReal) (y : EReal) = r :=
  ⟨Real.rpow x y, Real.rpow_pos_of_pos hx y, rfl⟩

/-- The reciprocal square root of a positive real is a positive real. -/
theorem rsqrt_coe_pos {x : ℝ} (hx : 0 < x) : ∃ r : ℝ, 0 < r ∧ Ideal.rsqrt (x : EReal) = r := by
  refine ⟨(Real.sqrt x)⁻¹, inv_pos.mpr (Real.sqrt_pos.mpr hx), ?_⟩
  show (if x < 0 then (⊥ : EReal) else if x = 0 then ⊤ else ((Real.sqrt x)⁻¹ : ℝ)) = _
  rw [if_neg (not_lt.mpr hx.le), if_neg hx.ne']
theorem isReal_rsqrt_of_pos {x : EReal} (hx : IsReal x) (hpos : 0 < x) : IsReal (Ideal.rsqrt x) := by
  obtain ⟨a, rfl⟩ := hx
  obtain ⟨r, _, hr⟩ := rsqrt_coe_pos (EReal.coe_pos.mp hpos)
  exact ⟨r, hr⟩

/-- A real base at least one raised to a real power is a positive real. -/
theorem pow_pos_of_one_le {x y : EReal} (hx : IsReal x) (h1 : 1 ≤ x) (hy : IsReal y) :
    ∃ r : ℝ, 0 < r ∧ Ideal.pow x y = r := by
  obtain ⟨a, rfl⟩ := hx; obtain ⟨b, rfl⟩ := hy
  have ha : (1 : ℝ) ≤ a := by exact_mod_cast h1
  exact pow_coe_pos (lt_of_lt_of_le one_pos ha) b

/-! ## Float words that denote real numbers -/

/-- A float word whose exponent field is not all ones (neither an infinity nor a NaN pattern)
    denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

/-- At 32 bits: exponent field not 255. -/
theorem isReal_ofBits_f32 (b : BitVec 32) (h : (b.extractLsb' 23 8).toNat ≠ 255) : IsReal (Ideal.ofBits .f32 b) :=
  isReal_ieee 8 23 b h

/-- The word `0xBF800000` is minus one. -/
theorem ofBits_neg_one_f32 : Ideal.ofBits .f32 0xBF800000#32 = ((-1 : ℝ) : EReal) := by
  simp [Ideal.ofBits, Ideal.ieee, -EReal.coe_mul, -EReal.coe_neg]; norm_num
/-- The word `0xC0000000` is minus two. -/
theorem ofBits_neg_two_f32 : Ideal.ofBits .f32 0xC0000000#32 = ((-2 : ℝ) : EReal) := by
  simp [Ideal.ofBits, Ideal.ieee, -EReal.coe_mul, -EReal.coe_neg]; norm_num
/-- The word `0xBF000000` is minus one half. -/
theorem ofBits_neg_half_f32 : Ideal.ofBits .f32 0xBF000000#32 = ((-(1 / 2) : ℝ) : EReal) := by
  simp [Ideal.ofBits, Ideal.ieee, -EReal.coe_mul, -EReal.coe_neg]; norm_num
/-- The word `0x47435000` is fifty thousand. -/
theorem ofBits_50000_f32 : Ideal.ofBits .f32 0x47435000#32 = ((50000 : ℝ) : EReal) := by
  simp [Ideal.ofBits, Ideal.ieee, -EReal.coe_mul, -EReal.coe_neg]; norm_num
/-- The word `0x3727C5AC` (the float nearest 10⁻⁵) is a positive real: 10995116 · 2⁻⁴⁰. -/
theorem ofBits_eps_f32 : Ideal.ofBits .f32 0x3727C5AC#32 = (((10995116 : ℝ) * (2 : ℝ) ^ (-40 : ℤ) : ℝ) : EReal) := by
  simp [Ideal.ofBits, Ideal.ieee, -EReal.coe_mul, -EReal.coe_neg]
theorem ofBits_eps_f32_pos : ∃ r : ℝ, 0 < r ∧ Ideal.ofBits .f32 0x3727C5AC#32 = r :=
  ⟨_, by positivity, ofBits_eps_f32⟩

theorem isReal_ofBits_zero_f32 : IsReal (Ideal.ofBits .f32 0x00000000#32) := by
  rw [Ideal.ofBits_zero_f32]; exact isReal_zero
theorem isReal_ofBits_one_f32 : IsReal (Ideal.ofBits .f32 0x3F800000#32) := by
  rw [Ideal.ofBits_one_f32]; exact isReal_one
theorem isReal_ofBits_neg_one_f32 : IsReal (Ideal.ofBits .f32 0xBF800000#32) := ⟨_, ofBits_neg_one_f32⟩
theorem isReal_ofBits_neg_two_f32 : IsReal (Ideal.ofBits .f32 0xC0000000#32) := ⟨_, ofBits_neg_two_f32⟩
theorem isReal_ofBits_neg_half_f32 : IsReal (Ideal.ofBits .f32 0xBF000000#32) := ⟨_, ofBits_neg_half_f32⟩
theorem isReal_ofBits_50000_f32 : IsReal (Ideal.ofBits .f32 0x47435000#32) := ⟨_, ofBits_50000_f32⟩
theorem isReal_ofBits_eps_f32 : IsReal (Ideal.ofBits .f32 0x3727C5AC#32) := ⟨_, ofBits_eps_f32⟩

/-! ## Arrays: the operations of the data path keep an all-real array all-real -/

section Arrays
variable {s : Shape} {φ : FTy}

theorem allReal_mulf {a b : FVec Ideal s φ} (ha : AllReal a) (hb : AllReal b) : AllReal (mulf a b) :=
  fun i => (ha i).mul (hb i)
theorem allReal_addf {a b : FVec Ideal s φ} (ha : AllReal a) (hb : AllReal b) : AllReal (addf a b) :=
  fun i => (ha i).add (hb i)
theorem allReal_subf {a b : FVec Ideal s φ} (ha : AllReal a) (hb : AllReal b) : AllReal (subf a b) :=
  fun i => (ha i).sub (hb i)
theorem allReal_maximumf {a b : FVec Ideal s φ} (ha : AllReal a) (hb : AllReal b) : AllReal (maximumf a b) :=
  fun i => (ha i).max (hb i)
/-- A format change is the identity on extended reals. -/
theorem allReal_truncf {ψ : FTy} {a : FVec Ideal s φ} (h : ψ.bits < φ.bits) (ha : AllReal a) :
    AllReal (truncf ψ a h : FVec Ideal s ψ) := fun i => ha i
theorem allReal_extf {ψ : FTy} {a : FVec Ideal s φ} (h : φ.bits < ψ.bits) (ha : AllReal a) :
    AllReal (extf ψ a h : FVec Ideal s ψ) := fun i => ha i
/-- A splat of a word that denotes a real number. -/
theorem allReal_constant (b : BitVec φ.bits) (h : IsReal (Ideal.ofBits φ b)) :
    AllReal (constant (F := Ideal) s φ b) := fun _ => h
theorem allReal_broadcast {x : EReal} (h : IsReal x) : AllReal (broadcast s x) := fun _ => h
/-- A signed integer read as a float is that integer, a real number. -/
theorem allReal_sitofp {w : Nat} (x : IVec s w) : AllReal (sitofp φ x : FVec Ideal s φ) :=
  fun i => ⟨((x i).toInt : ℝ), rfl⟩
/-- A select takes each entry from one of its two operands. -/
theorem allReal_select (c : IVec s 1) {a b : s.Idx → EReal} (ha : AllReal a) (hb : AllReal b) :
    AllReal (select c a b) := fun i => by
  show IsReal (if c i = 1 then a i else b i)
  split_ifs
  · exact ha i
  · exact hb i

/-- The host's quotient by an array of real numbers other than zero. -/
theorem allReal_hostDivf {a b : FVec Ideal s φ} (ha : AllReal a) (hb : ∀ i, ∃ c : ℝ, c ≠ 0 ∧ b i = c) :
    AllReal (Host.divf a b) := fun i => by
  obtain ⟨c, hc, hbc⟩ := hb i
  show IsReal (Ideal.div (a i) (b i))
  rw [hbc]; exact (ha i).div_coe hc
/-- The host's power of real bases to real exponents. -/
theorem allReal_hostPowf {a b : FVec Ideal s φ} (ha : AllReal a) (hb : AllReal b) : AllReal (Host.powf a b) :=
  fun i => (ha i).pow (hb i)
/-- The host's reciprocal square root of positive reals. -/
theorem allReal_hostRsqrt {a : FVec Ideal s φ} (ha : AllReal a) (hpos : ∀ i, 0 < a i) : AllReal (Host.rsqrt a) :=
  fun i => isReal_rsqrt_of_pos (ha i) (hpos i)

end Arrays

section Layout
variable {s t : Shape}

theorem allReal_broadcastInDim (dims : Fin s.rank → Fin t.rank) (h : s.BroadcastsInDim t dims) {x : s.Idx → EReal}
    (hx : AllReal x) : AllReal (broadcastInDim t dims h x) := fun _ => hx _
theorem allReal_shapeCast {x : s.Idx → EReal} (h : s.ShapeCasts t) (hx : AllReal x) : AllReal (shapeCast t x h) :=
  fun _ => hx _
theorem allReal_extractStridedSlice (off : Fin s.rank → Nat) {x : s.Idx → EReal} (h : s.Slices off t) (hx : AllReal x) :
    AllReal (extractStridedSlice t off x h) := fun _ => hx _
theorem allReal_transpose (perm : List (Fin s.rank)) {x : s.Idx → EReal} (h : s.Transposes perm t) (hx : AllReal x) :
    AllReal (transpose t perm x h) := fun _ => hx _
/-- A gather reads entries of its operand, whatever the start indices. -/
theorem allReal_gather {si : Shape} {w : Nat} (d : GatherDims s si t) {x : s.Idx → EReal} (idx : IVec si w)
    (hx : AllReal x) : AllReal (Host.gather d x idx) := fun _ => hx _
/-- A concatenation reads entries of its pieces. -/
theorem allReal_concatenate (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

end Layout

section Sums
variable {φ : FTy}

/-- An accumulating scatter adds to each operand entry finitely many update entries. -/
theorem allReal_scatterAdd {s si u : Shape} {w : Nat} (d : ScatterDims s si u) {x : FVec Ideal s φ} (idx : IVec si w)
    {upd : FVec Ideal u φ} (hx : AllReal x) (hu : AllReal upd) : AllReal (Host.scatterAdd d x idx upd) :=
  fun i => (hx i).add (isReal_sum _ _ fun j _ => hu j)
/-- The host's sum along axes adds to the initial value finitely many entries. -/
theorem allReal_hostReduceAdd {s t u : Shape} {axes : List (Fin s.rank)} {x : FVec Ideal s φ} {init : u.Idx → Ideal φ}
    (h : s.ReducesTo axes t) (hu : 0 < u.numel) (hx : AllReal x) (hi : AllReal init) :
    AllReal (Host.reduceAdd x init h hu) :=
  fun _ => (hi _).add (isReal_sum _ _ fun i _ => hx i)
/-- A matrix product onto an accumulator: finitely many products added to an entry. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (matmul d prec lhs rhs acc) :=
  fun j => (ha j).add (isReal_sum _ _ fun _ _ => (hl _).mul (hr _))
/-- The host's matrix product: the same onto zero. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun _ => isReal_zero.add (isReal_sum _ _ fun _ _ => (hl _).mul (hr _))

end Sums

end Cert.Math
-- ==== Proof.Algebra.lean ====
/-
  The swept form of the symmetric contrastive loss equals the textbook form, on real data.

  Both forms are built from the real similarity matrix a i j = 2 * (inner product of row i of X with
  row j of Y).  The swept form subtracts from the diagonal entry the quantity
  log (sum_k exp (a_k - 3)) + 3, the textbook form subtracts the row maximum M first and then
  log (sum_k exp (a_k - M)).  For every real shift t,
      sum_k exp (a_k - t) = exp (-t) * sum_k exp a_k  > 0,
  so  log (sum_k exp (a_k - t)) = log (sum_k exp a_k) - t,  and both forms reduce to
      a_i - log (sum_k exp a_k).
  The column terms are the same identity for the transposed matrix.  The row normalisation keeps
  real data real, because its denominator is at least the positive floor.
-/
import proofs.«142358_j14362370638446_2_alg».proof.Proof.Spec
import proofs.«142358_j14362370638446_2_alg».proof.Proof.LibFinite

open scoped BigOperators

namespace Cert.Algebra

open Idealize.ShloMosaic Cert.Spec Cert.Math

/-! ## The literals -/

/-- The word `0x40000000` is two. -/
theorem two_eq : two = ((2 : ℝ) : EReal) := by
  simp [Ideal.ofBits, Ideal.ieee, -EReal.coe_mul, -EReal.coe_neg]; norm_num
/-- The word `0x40400000` is three. -/
theorem three_eq : three = ((3 : ℝ) : EReal) := by
  simp [Ideal.ofBits, Ideal.ieee, -EReal.coe_mul, -EReal.coe_neg]; norm_num
/-- The word `0x3F000000` is one half. -/
theorem half_eq : half = ((1 / 2 : ℝ) : EReal) := by
  simp [Ideal.ofBits, Ideal.ieee, -EReal.coe_mul, -EReal.coe_neg]; norm_num
/-- The word `0xFF800000` is minus infinity. -/
theorem negInf_eq : negInf = ⊥ := by
  simp [Ideal.ofBits, Ideal.ieee]
/-- The word `0x2B8CBCCC` (the float nearest 10⁻¹²) is 9223372 · 2⁻⁶³. -/
theorem tiny_eq : tiny = (((9223372 : ℝ) * (2 : ℝ) ^ (-63 : ℤ) : ℝ) : EReal) := by
  simp [Ideal.ofBits, Ideal.ieee, -EReal.coe_mul, -EReal.coe_neg]
/-- It is a positive real. -/
theorem tiny_pos : ∃ t : ℝ, 0 < t ∧ tiny = (t : EReal) := ⟨_, by positivity, tiny_eq⟩

/-! ## Finite sums and maxima of real numbers -/

/-- A finite sum of real numbers, taken in the extended reals, is their real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The maximum of a nonempty finite family of real numbers, folded from minus infinity, is real:
    it is at least one of them and below plus infinity. -/
theorem fold_max_real {ι : Type*} (s : Finset ι) (hs : s.Nonempty) (a : ι → ℝ) :
    ∃ M : ℝ, s.fold max (⊥ : EReal) (fun k => ((a k : ℝ) : EReal)) = (M : EReal) := by
  refine isReal_iff.mpr ⟨?_, ?_⟩
  · obtain ⟨k, hk⟩ := hs
    have hle : ((a k : ℝ) : EReal) ≤ s.fold max (⊥ : EReal) (fun k => ((a k : ℝ) : EReal)) :=
      (Finset.le_fold_max _).mpr (Or.inr ⟨k, hk, le_rfl⟩)
    intro h
    rw [h] at hle
    exact EReal.coe_ne_bot _ (le_bot_iff.mp hle)
  · exact ((Finset.fold_max_lt _).mpr ⟨bot_lt_top, fun k _ => EReal.coe_lt_top _⟩).ne

/-! ## The shift identity for the logarithm of a sum of exponentials -/

section Shift
variable {ι : Type*} [Fintype ι] [Nonempty ι]

/-- A nonempty finite sum of exponentials is positive. -/
theorem sum_exp_pos (a : ι → ℝ) : 0 < ∑ k, Real.exp (a k) :=
  Finset.sum_pos (fun k _ => Real.exp_pos _) Finset.univ_nonempty

/-- Shifting every exponent by `t` shifts the logarithm of the sum by `t`:
    sum_k exp (a_k - t) = (sum_k exp a_k) * exp (-t). -/
theorem log_sum_exp_shift (a : ι → ℝ) (t : ℝ) :
    Real.log (∑ k, Real.exp (a k - t)) = Real.log (∑ k, Real.exp (a k)) - t := by
  have h : ∑ k, Real.exp (a k - t) = (∑ k, Real.exp (a k)) * Real.exp (-t) := by
    rw [Finset.sum_mul]
    refine Finset.sum_congr rfl fun k _ => ?_
    rw [sub_eq_add_neg, Real.exp_add]
  rw [h, Real.log_mul (sum_exp_pos a).ne' (Real.exp_pos _).ne', Real.log_exp]
  ring

/-- The same over the extended reals: the exponentials of real numbers are real, their sum is a
    positive real, and its logarithm is the real logarithm. -/
theorem log_sum_exp_coe (a : ι → ℝ) (t : ℝ) :
    Ideal.log (∑ k, Ideal.exp (((a k : ℝ) : EReal) - ((t : ℝ) : EReal)))
      = ((Real.log (∑ k, Real.exp (a k)) - t : ℝ) : EReal) := by
  have h1 : ∀ k, Ideal.exp (((a k : ℝ) : EReal) - ((t : ℝ) : EReal)) = ((Real.exp (a k - t) : ℝ) : EReal) := by
    intro k
    rw [← EReal.coe_sub, Ideal.exp_coe]
  rw [Finset.sum_congr rfl fun k _ => h1 k, coe_sum, Ideal.log_coe,
    if_neg (not_le.mpr (sum_exp_pos fun k => a k - t)), log_sum_exp_shift]

/-- Subtracting a shift `M` before the logarithm of the sum of exponentials, or subtracting a shift `c`
    inside it and adding `c` back after, gives the same number: a_i - log (sum_k exp a_k). -/
theorem shift_identity (a : ι → ℝ) (i : ι) (M c : ℝ) :
    (((a i : ℝ) : EReal) - (M : EReal)) - Ideal.log (∑ k, Ideal.exp (((a k : ℝ) : EReal) - (M : EReal)))
      = ((a i : ℝ) : EReal)
          - (Ideal.log (∑ k, Ideal.exp (((a k : ℝ) : EReal) - (c : EReal))) + (c : EReal)) := by
  rw [log_sum_exp_coe, log_sum_exp_coe, ← EReal.coe_sub, ← EReal.coe_sub, ← EReal.coe_add, ← EReal.coe_sub]
  congr 1
  ring

end Shift

/-! ## The row normalisation keeps real data real -/

/-- A real entry over the larger of a square root (or minus infinity) and the positive floor is real:
    the denominator is a real number at least the floor, so not zero. -/
theorem nrm_real (A : Fin 8192 → Fin 1024 → EReal) (hA : ∀ i d, ∃ r : ℝ, A i d = (r : EReal)) :
    ∀ i d, ∃ r : ℝ, Cert.Spec.nrm A i d = (r : EReal) := by
  intro i d
  obtain ⟨t, ht, htiny⟩ := tiny_pos
  obtain ⟨S, hS⟩ : IsReal (∑ e : Fin 1024, A i e * A i e) :=
    isReal_sum _ _ fun e _ => IsReal.mul (hA i e) (hA i e)
  have hden : ∃ c : ℝ, c ≠ 0 ∧ max (Ideal.sqrt (∑ e : Fin 1024, A i e * A i e)) tiny = (c : EReal) := by
    rw [hS, htiny, Ideal.sqrt_coe]
    split_ifs with h
    · exact ⟨t, ht.ne', max_eq_right bot_le⟩
    · exact ⟨max (Real.sqrt S) t, (lt_of_lt_of_le ht (le_max_right _ _)).ne',
        (EReal.coe_strictMono.monotone.map_max).symm⟩
  obtain ⟨c, hc, hden⟩ := hden
  show IsReal (Ideal.div (A i d) (max (Ideal.sqrt (∑ e : Fin 1024, A i e * A i e)) tiny))
  rw [hden]
  exact IsReal.div_coe (hA i d) hc

/-! ## The two forms of the loss on real data -/

/-- The diagonal of the row-wise log-softmax of a real square matrix: the row maximum is a real
    number, and the shift identity removes it. -/
theorem logSoftmax_diag (A : Fin 8192 → Fin 8192 → EReal) (a : Fin 8192 → Fin 8192 → ℝ)
    (hA : ∀ i j, A i j = ((a i j : ℝ) : EReal)) (i : Fin 8192) :
    logSoftmax A i i
      = ((a i i : ℝ) : EReal)
          - (Ideal.log (∑ k : Fin 8192, Ideal.exp (((a i k : ℝ) : EReal) - three)) + three) := by
  obtain ⟨M, hM⟩ : ∃ M : ℝ, max negInf (rowMax A i) = (M : EReal) := by
    obtain ⟨M, hM⟩ := fold_max_real (Finset.univ : Finset (Fin 8192)) Finset.univ_nonempty (a i)
    refine ⟨M, ?_⟩
    unfold rowMax
    rw [negInf_eq, Finset.fold_congr (g := fun k => ((a i k : ℝ) : EReal)) (fun k _ => hA i k), hM]
    exact max_eq_right bot_le
  have hexp : ∀ k : Fin 8192, Ideal.exp (A i k - (M : EReal))
      = Ideal.exp (((a i k : ℝ) : EReal) - (M : EReal)) := fun k => by rw [hA i k]
  unfold logSoftmax
  rw [hM, three_eq, Finset.sum_congr rfl fun k _ => hexp k, hA i i]
  exact shift_identity (a i) i M 3

/-! ## The two forms of the loss on real data, continued -/

section Loss
variable (X Y : Fin 8192 → Fin 1024 → EReal)

/-- For real data the two similarity matrices are one real matrix: twice the inner products
    (dividing by one half is multiplying by two). -/
theorem sim_real (hX : ∀ i d, ∃ r : ℝ, X i d = (r : EReal)) (hY : ∀ i d, ∃ r : ℝ, Y i d = (r : EReal)) :
    ∃ a : Fin 8192 → Fin 8192 → ℝ,
      (∀ i j, simK X Y i j = ((a i j : ℝ) : EReal)) ∧ (∀ i j, simR X Y i j = ((a i j : ℝ) : EReal)) := by
  choose x hx using hX
  choose y hy using hY
  have hdot : ∀ i j, dot X Y i j = ((∑ d : Fin 1024, x i d * y j d : ℝ) : EReal) := by
    intro i j
    have h : ∀ d : Fin 1024, X i d * Y j d = ((x i d * y j d : ℝ) : EReal) := fun d => by
      rw [hx i d, hy j d, EReal.coe_mul]
    unfold dot
    rw [Finset.sum_congr rfl fun d _ => h d, coe_sum]
  refine ⟨fun i j => (∑ d : Fin 1024, x i d * y j d) * 2, fun i j => ?_, fun i j => ?_⟩
  · unfold simK
    rw [hdot, two_eq, ← EReal.coe_mul]
  · unfold simR
    rw [hdot, half_eq, Ideal.div_coe (by norm_num), ← EReal.coe_mul]
    congr 1
    norm_num

/-- A row term of the swept form, through the real similarity matrix. -/
theorem rowK_eq (a : Fin 8192 → Fin 8192 → ℝ) (hK : ∀ i j, simK X Y i j = ((a i j : ℝ) : EReal))
    (i : Fin 8192) :
    simK X Y i i - rowLseK X Y i
      = ((a i i : ℝ) : EReal)
          - (Ideal.log (∑ k : Fin 8192, Ideal.exp (((a i k : ℝ) : EReal) - three)) + three) := by
  have hexp : ∀ k : Fin 8192, expK X Y i k = Ideal.exp (((a i k : ℝ) : EReal) - three) := fun k => by
    unfold expK
    rw [hK i k]
  unfold rowLseK
  rw [hK i i, Finset.sum_congr rfl fun k _ => hexp k]

/-- A column term of the swept form: the same with the matrix transposed. -/
theorem colK_eq (a : Fin 8192 → Fin 8192 → ℝ) (hK : ∀ i j, simK X Y i j = ((a i j : ℝ) : EReal))
    (i : Fin 8192) :
    simK X Y i i - colLseK X Y i
      = ((a i i : ℝ) : EReal)
          - (Ideal.log (∑ k : Fin 8192, Ideal.exp (((a k i : ℝ) : EReal) - three)) + three) := by
  have hexp : ∀ k : Fin 8192, expK X Y k i = Ideal.exp (((a k i : ℝ) : EReal) - three) := fun k => by
    unfold expK
    rw [hK k i]
  unfold colLseK
  rw [hK i i, Finset.sum_congr rfl fun k _ => hexp k]

/-- On real matrices the swept loss is the textbook loss: term by term along the diagonal, for the
    rows and for the columns. -/
theorem lossK_eq_lossR_of_real (hX : ∀ i d, ∃ r : ℝ, X i d = (r : EReal))
    (hY : ∀ i d, ∃ r : ℝ, Y i d = (r : EReal)) :
    Cert.Spec.lossK X Y = Cert.Spec.lossR X Y := by
  obtain ⟨a, hK, hR⟩ := sim_real X Y hX hY
  have hrow : (∑ i : Fin 8192, (simK X Y i i - rowLseK X Y i))
      = ∑ i : Fin 8192, logSoftmax (simR X Y) i i :=
    Finset.sum_congr rfl fun i _ => by
      rw [rowK_eq X Y a hK i, logSoftmax_diag (simR X Y) a hR i]
  have hcol : (∑ i : Fin 8192, (simK X Y i i - colLseK X Y i))
      = ∑ i : Fin 8192, logSoftmax (fun p q => simR X Y q p) i i :=
    Finset.sum_congr rfl fun i _ => by
      rw [colK_eq X Y a hK i, logSoftmax_diag (fun p q => simR X Y q p) (fun p q => a q p) (fun p q => hR q p) i]
  unfold lossK lossR
  rw [hrow, hcol]

end Loss

/-- The two forms agree on the row-normalised real matrices. -/
theorem lossK_eq_lossR (A B : Fin 8192 → Fin 1024 → EReal)
    (hA : ∀ i d, ∃ r : ℝ, A i d = (r : EReal)) (hB : ∀ i d, ∃ r : ℝ, B i d = (r : EReal)) :
    Cert.Spec.lossK (Cert.Spec.nrm A) (Cert.Spec.nrm B)
      = Cert.Spec.lossR (Cert.Spec.nrm A) (Cert.Spec.nrm B) :=
  lossK_eq_lossR_of_real _ _ (nrm_real A hA) (nrm_real B hB)

end Cert.Algebra
-- ==== Proof.Prefix.lean ====
/-
  The host operations before the kernel's region, read at the ideal values: each of the two argument matrices
  is squared, summed along its rows, square-rooted, floored at a small positive constant and divided into the
  argument, so the region's two input arrays hold the row-normalised arguments entry by entry.  And, from the
  precondition that every entry of both arguments has absolute value below +∞, every entry is a real number.
-/
import proofs.«142358_j14362370638446_2_alg».proof.Proof.Gen.KernelIdeal.Frame.Runs
import proofs.«142358_j14362370638446_2_alg».proof.Proof.Gen.Pre_finite_inputs
import proofs.«142358_j14362370638446_2_alg».proof.Defs
import proofs.«142358_j14362370638446_2_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.ReduceAll

noncomputable section

open scoped BigOperators

namespace Cert.KernelIdeal.Prefix

open Cert.KernelIdeal Cert.KernelIdeal.Gen Idealize.ShloMosaic Idealize.ShloMosaic.ValueIdx
open Idealize.ShloMosaic.StableHlo

/-- The row normalisation as the host operations before the kernel's region compose it: the argument divided by
    the broadcast of its rows' Euclidean norms, each floored at a small positive constant; the final conversion
    to the narrower float format is the identity on extended reals. -/
def normTerm (a : FVec Ideal S8192x1024 .f32) : FVec Ideal S8192x1024 .bf16 :=
  truncf .bf16
    (Host.divf a
      (broadcastInDim S8192x1024 ![0, 1] Facts₀.bcast_S8192x1_S8192x1024_0_1
        (maximumf
          (Host.sqrt
            (broadcastInDim S8192x1 ![0] Facts₀.bcast_S8192_S8192x1_0
              (Host.reduceAdd (mulf a a) (constant (F := Ideal) S_ .f32 0x00000000#32)
                Facts₀.reducesTo_S8192x1024_S8192_d1 Facts₀.h_S_)))
          (broadcastInDim S8192x1 ![] Facts₀.bcast_S_S8192x1 (constant (F := Ideal) S_ .f32 0x2B8CBCCC#32)))))
    Facts₀.bitsLt_bf16_f32

/-- The host's row sum (a reduction with an add body over the feature axis) read at row `i`: the initial value
    plus the sum over the 1024 feature coordinates of the operand at `(i, k)`. -/
theorem rowSum_apply (x : FVec Ideal S8192x1024 .f32) (init : FVec Ideal S_ .f32) (i : Fin 8192) :
    Host.reduceAdd x init Facts₀.reducesTo_S8192x1024_S8192_d1 Facts₀.h_S_ (ix1 i)
      = init (Shape.Idx.first Facts₀.h_S_) + ∑ k : Fin 1024, x (ix2 i k) := by
  rw [hostReduceAdd_apply, Ideal.hostReduceAdd_single Facts₀.reducesTo_S8192x1024_S8192_d1 (by decide)]
  refine congrArg (_ + ·) (Finset.sum_congr rfl fun k _ => ?_)
  exact congrArg x (funext fun a => Fin.ext (by match a with | ⟨0, _⟩ => rfl | ⟨1, _⟩ => rfl))

/-- A column of row values broadcast along the feature axis reads, at `(i, d)`, the column at `(i, 0)`. -/
theorem bcastCols_apply (y : FVec Ideal S8192x1 .f32) (i : Fin 8192) (d : Fin 1024) :
    broadcastInDim S8192x1024 ![0, 1] Facts₀.bcast_S8192x1_S8192x1024_0_1 y (ix2 i d) = y (ix2 i (0 : Fin 1)) :=
  broadcastInDim_apply _ Facts₀.bcast_S8192x1_S8192x1024_0_1 y (ix2 i d) (ix2 i (0 : Fin 1)) (fun a => match a with
    | ⟨0, _⟩ => by show i.val = if (8192 : Nat) = 1 then 0 else i.val; rw [if_neg (by decide)]
    | ⟨1, _⟩ => by show 0 = if (1 : Nat) = 1 then 0 else d.val; rw [if_pos rfl])

/-- A vector of row values given a trailing unit axis reads, at `(i, 0)`, the vector at `i`. -/
theorem keepDims_apply (y : FVec Ideal S8192 .f32) (i : Fin 8192) :
    broadcastInDim S8192x1 ![0] Facts₀.bcast_S8192_S8192x1_0 y (ix2 i (0 : Fin 1)) = y (ix1 i) :=
  broadcastInDim_apply _ Facts₀.bcast_S8192_S8192x1_0 y (ix2 i (0 : Fin 1)) (ix1 i) (fun a => match a with
    | ⟨0, _⟩ => by show i.val = if (8192 : Nat) = 1 then 0 else i.val; rw [if_neg (by decide)])

/-- The composed host operations read at `(i, d)`: the entry over its row's floored Euclidean norm. -/
theorem normTerm_apply (a : FVec Ideal S8192x1024 .f32) (i : Fin 8192) (d : Fin 1024) :
    normTerm a (ix2 i d) = Cert.Spec.nrm (Cert.Spec.mat a) i d := by
  unfold normTerm Cert.Spec.nrm Cert.Spec.mat
  show Ideal.div (a (ix2 i d))
      (broadcastInDim (s := S8192x1) S8192x1024 ![0, 1] Facts₀.bcast_S8192x1_S8192x1024_0_1 _ (ix2 i d)) = _
  rw [bcastCols_apply]
  show Ideal.div (a (ix2 i d))
      (max (Ideal.sqrt (broadcastInDim (s := S8192) S8192x1 ![0] Facts₀.bcast_S8192_S8192x1_0 _ (ix2 i (0 : Fin 1))))
        (broadcastInDim (s := S_) S8192x1 ![] Facts₀.bcast_S_S8192x1 _ (ix2 i (0 : Fin 1)))) = _
  rw [keepDims_apply, broadcastInDim_scalar_apply, rowSum_apply]
  show Ideal.div (a (ix2 i d))
      (max (Ideal.sqrt (Ideal.ofBits .f32 0x00000000#32 + ∑ k : Fin 1024, a (ix2 i k) * a (ix2 i k)))
        (Ideal.ofBits .f32 0x2B8CBCCC#32)) = _
  rw [Ideal.ofBits_zero_f32, zero_add]

/-- The rank-0 index set has one element. -/
instance : Subsingleton Cert.Pre_finite_inputs.S_.Idx := ⟨fun a b => funext fun d => d.elim0⟩

/-- An extended real whose absolute value compares strictly below the word of `+∞` is a real number: the
    two infinities have absolute value `⊤`, which is not below `⊤`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable (m : (ℓ : Loc nD τ sig) → Buf (Elt Ideal) ℓ) (c : Dev nD)

/-- The first input array of the kernel's region, as the host operations before the region leave it: the
    composed term of the first argument. -/
theorem V_v16_eq :
    (V m c main_call0_v16 : S8192x1024.Idx → EReal) = normTerm (m ((c.tc : Thread nD τ).loc main_arg0)) := by
  show StableHlo.after hostOps0 (fun b => m (c, b)) (Proc.devRef .tc main_call0_v16) = _
  after_results
  rfl

/-- The second input array of the kernel's region: the same composed term of the second argument. -/
theorem V_v17_eq :
    (V m c main_call0_v17 : S8192x1024.Idx → EReal) = normTerm (m ((c.tc : Thread nD τ).loc main_arg1)) := by
  show StableHlo.after hostOps0 (fun b => m (c, b)) (Proc.devRef .tc main_call0_v17) = _
  after_results
  rfl

/-- The region's first input at `(i, d)` is the first argument's row-normalised entry. -/
theorem V_v16_apply (i : Fin 8192) (d : Fin 1024) :
    (V m c main_call0_v16 : S8192x1024.Idx → EReal) (ix2 i d)
      = Cert.Spec.nrm (Cert.Spec.mat (m ((c.tc : Thread nD τ).loc main_arg0))) i d := by
  rw [V_v16_eq]
  exact normTerm_apply _ i d

/-- The region's second input at `(i, d)` is the second argument's row-normalised entry. -/
theorem V_v17_apply (i : Fin 8192) (d : Fin 1024) :
    (V m c main_call0_v17 : S8192x1024.Idx → EReal) (ix2 i d)
      = Cert.Spec.nrm (Cert.Spec.mat (m ((c.tc : Thread nD τ).loc main_arg1))) i d := by
  rw [V_v17_eq]
  exact normTerm_apply _ i d

/-- Under the precondition (every entry of both arguments has absolute value below `+∞`), every entry of
    both argument matrices is a real number. -/
theorem args_real [hP : Cert.Pre_finite_inputs.Facts] (h : Cert.Pre_KernelIdeal m) :
    (∀ (i : Fin 8192) (d : Fin 1024),
        ∃ r : ℝ, Cert.Spec.mat (m ((c.tc : Thread nD τ).loc main_arg0)) i d = (r : EReal))
    ∧ (∀ (i : Fin 8192) (d : Fin 1024),
        ∃ r : ℝ, Cert.Spec.mat (m ((c.tc : Thread nD τ).loc main_arg1)) i d = (r : EReal)) := by
  have h0 := congrFun (h c) ValueIdx.ix0
  dsimp only [Cert.Pre_finite_inputs.fn] at h0
  obtain ⟨h1, h2⟩ := IntOp.andi_eq_one.1 h0
  refine ⟨fun i d => ?_, fun i d => ?_⟩
  · exact real_of_abs_lt_inf _ (Host.reduce_andi_all _ _ _ _ _ h1 (ix2 i d))
  · exact real_of_abs_lt_inf _ (Host.reduce_andi_all _ _ _ _ _ h2 (ix2 i d))

end Cert.KernelIdeal.Prefix
end
-- ==== Proof.SweepDefs.lean ====
/-
  The two quantities the sweep carries from grid point to grid point, by recursion on the point.  Points run row
  block by row block (point n is row block n / 8, column block n % 8).  The running row sum of the shifted
  exponentials is restarted from the zero block on a first column block and increased by each tile's row sums;
  the diagonal of the similarity tile is recorded on a diagonal tile (n % 9 = 0: row block = column block) and
  kept afterwards.
-/
import proofs.«142358_j14362370638446_2_alg».proof.Proof.Gen.KernelIdeal.Frame

noncomputable section

open Idealize.ShloMosaic Idealize.ShloMosaic.TcCoe Idealize.SL.Sem

namespace Cert.KernelIdeal.Sweep

open Cert.KernelIdeal Cert.KernelIdeal.Gen

variable {F : FTy → Type} [FloatOps F]
variable (m : (ℓ : Loc nD τ sig) → Buf (Elt F) ℓ)

/-- The row tile and the column tile the body reads at point `n`. -/
abbrev tileX (c : Dev nD) (n : ℕ) (h : n < cfg0.N) : Vec F S1024x1024 .bf16 := iblk m c 0 ⟨n, h⟩
abbrev tileY (c : Dev nD) (n : ℕ) (h : n < cfg0.N) : Vec F S1024x1024 .bf16 := iblk m c 1 ⟨n, h⟩

/-- The running row sum after point `n`: restarted from the zero block on a first column block. -/
def acc (c : Dev nD) : (n : ℕ) → n < cfg0.N → Vec F S1024x1 .f32
  | 0, h => k0_pay4 (tileX m c 0 h) (tileY m c 0 h) (k0_pay1 (F := F))
  | n + 1, h =>
    if (n + 1) % 8 = 0 then k0_pay4 (tileX m c (n + 1) h) (tileY m c (n + 1) h) (k0_pay1 (F := F))
    else k0_pay4 (tileX m c (n + 1) h) (tileY m c (n + 1) h) (acc c n (Nat.lt_of_succ_lt h))

/-- The recorded diagonal after point `n`: taken afresh on a diagonal tile, kept otherwise. -/
def dg (c : Dev nD) : (n : ℕ) → n < cfg0.N → Vec F S1024x1 .f32
  | 0, h => k0_pay6 (tileX m c 0 h) (tileY m c 0 h)
  | n + 1, h =>
    if (n + 1) % 9 = 0 then k0_pay6 (tileX m c (n + 1) h) (tileY m c (n + 1) h)
    else dg c n (Nat.lt_of_succ_lt h)

theorem acc_zero (c : Dev nD) (h : 0 < cfg0.N) :
    acc m c 0 h = k0_pay4 (tileX m c 0 h) (tileY m c 0 h) (k0_pay1 (F := F)) := by rw [acc]
theorem acc_reset (c : Dev nD) (n : ℕ) (h : n + 1 < cfg0.N) (h0 : (n + 1) % 8 = 0) :
    acc m c (n + 1) h = k0_pay4 (tileX m c (n + 1) h) (tileY m c (n + 1) h) (k0_pay1 (F := F)) := by
  rw [acc]; exact if_pos h0
theorem acc_step (c : Dev nD) (n : ℕ) (h : n + 1 < cfg0.N) (h0 : ¬(n + 1) % 8 = 0) :
    acc m c (n + 1) h = k0_pay4 (tileX m c (n + 1) h) (tileY m c (n + 1) h) (acc m c n (Nat.lt_of_succ_lt h)) := by
  rw [acc]; exact if_neg h0
theorem dg_zero (c : Dev nD) (h : 0 < cfg0.N) :
    dg m c 0 h = k0_pay6 (tileX m c 0 h) (tileY m c 0 h) := by rw [dg]
theorem dg_take (c : Dev nD) (n : ℕ) (h : n + 1 < cfg0.N) (h1 : (n + 1) % 9 = 0) :
    dg m c (n + 1) h = k0_pay6 (tileX m c (n + 1) h) (tileY m c (n + 1) h) := by
  rw [dg]; exact if_pos h1
theorem dg_keep (c : Dev nD) (n : ℕ) (h : n + 1 < cfg0.N) (h1 : ¬(n + 1) % 9 = 0) :
    dg m c (n + 1) h = dg m c n (Nat.lt_of_succ_lt h) := by
  rw [dg]; exact if_neg h1

end Cert.KernelIdeal.Sweep
end
-- ==== Proof.Blocks.lean ====
/-
  The geometry of the windows: which entries of the arrays the blocks at a grid point are, and each
  output array assembled from the blocks the points write back.
-/
import proofs.«142358_j14362370638446_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ) (c : Dev nD)

/-! ## The index maps, decided over the grid

Point `t` of the 8 × 8 grid has row-block coordinate `t / 8` and column-block coordinate `t % 8`. -/

/-- The first input's block index at point `t`: row block `t / 8`, all columns. -/
theorem idx_facts0 : ∀ t : Fin cfg0.N, win0_0.index t (0 : Fin 2) = t.val / 8 ∧ win0_0.index t (1 : Fin 2) = 0 :=
  (by decide +kernel : ∀ t : Fin grid0.N, _)

/-- The second input's block index at point `t`: row block `t % 8`, all columns. -/
theorem idx_facts1 : ∀ t : Fin cfg0.N, win0_1.index t (0 : Fin 2) = t.val % 8 ∧ win0_1.index t (1 : Fin 2) = 0 :=
  (by decide +kernel : ∀ t : Fin grid0.N, _)

/-! ## The input blocks, read by coordinates

An entry of a block sits in the array, on each axis, at the block index times the block's size plus
its own coordinate. -/

/-- Row `p` of the first input's block at point `t` is row `1024 * (t / 8) + p` of its array. -/
theorem iblk0_apply (t : Fin cfg0.N) (p d : Fin 1024) :
    (iblk m c 0 t : S1024x1024.Idx → Elt F .bf16) (ix2 p d)
      = (V m c main_call0_v16 : S8192x1024.Idx → Elt F .bf16)
          (ix2 ⟨1024 * (t.val / 8) + p.val, by have := t.isLt; have : cfg0.N = 64 := N_0; have := p.isLt; omega⟩ d) := by
  obtain ⟨e0, e1⟩ := idx_facts0 t
  unfold iblk
  rw [View.read_apply]
  show V m c main_call0_v16 _ = V m c main_call0_v16 _
  congr 1
  funext a
  apply Fin.ext
  match a with
  | ⟨0, _⟩ => show win0_0.index t (0 : Fin 2) * 1024 + 1 * p.val = 1024 * (t.val / 8) + p.val; rw [e0]; omega
  | ⟨1, _⟩ => show win0_0.index t (1 : Fin 2) * 1024 + 1 * d.val = d.val; rw [e1]; omega

/-- Row `p` of the second input's block at point `t` is row `1024 * (t % 8) + p` of its array. -/
theorem iblk1_apply (t : Fin cfg0.N) (p d : Fin 1024) :
    (iblk m c 1 t : S1024x1024.Idx → Elt F .bf16) (ix2 p d)
      = (V m c main_call0_v17 : S8192x1024.Idx → Elt F .bf16)
          (ix2 ⟨1024 * (t.val % 8) + p.val, by have := p.isLt; omega⟩ d) := by
  obtain ⟨e0, e1⟩ := idx_facts1 t
  unfold iblk
  rw [View.read_apply]
  show V m c main_call0_v17 _ = V m c main_call0_v17 _
  congr 1
  funext a
  apply Fin.ext
  match a with
  | ⟨0, _⟩ => show win0_1.index t (0 : Fin 2) * 1024 + 1 * p.val = 1024 * (t.val % 8) + p.val; rw [e0]; omega
  | ⟨1, _⟩ => show win0_1.index t (1 : Fin 2) * 1024 + 1 * d.val = d.val; rw [e1]; omega

/-! ## The output arrays from the blocks written back -/

/-- Output 2's block index at point `t`: row block `t / 8`. -/
theorem idx_facts2 : ∀ t : Fin cfg0.N, win0_2.index t (0 : Fin 2) = t.val / 8 ∧ win0_2.index t (1 : Fin 2) = 0 :=
  (by decide +kernel : ∀ t : Fin grid0.N, _)

/-- What a writing-back point `t` writes to output 2 is block `t` of `G`, when the block left at `t` is `G`
    on rows `1024 * (t / 8) + p`. -/
theorem flushed2_eq (G : S8192x1.Idx → Elt F .f32)
    (hG : ∀ (t : Fin cfg0.N), t.val % 8 = 7 → ∀ p : Fin 1024,
      ((dats m 0 c).after 2 t : S1024x1.Idx → Elt F .f32) (ix2 p 0)
        = G (ix2 ⟨1024 * (t.val / 8) + p.val, by have := t.isLt; have : cfg0.N = 64 := N_0; have := p.isLt; omega⟩ 0))
    (t : Fin cfg0.N) (hf : (cfg0.win 2).flush t = true) :
    (dats m 0 c).flushed 2 t = ((cfg0.win 2).blk t).view.read (Elt F) G := by
  have h7 : t.val % 8 = 7 := (flush0_2 t).mp hf
  obtain ⟨e0, e1⟩ := idx_facts2 t
  show (cfg0.win 2).cut (grid0.coords t) ((dats m 0 c).after 2 t) = _
  refine funext fun (y : S1024x1.Idx) => ?_
  rw [View.read_apply]
  show ((dats m 0 c).after 2 t : S1024x1.Idx → Elt F .f32) y = G (((cfg0.win 2).blk t).view.emb y)
  have hy1 : (y 1).val < 1 := (y 1).isLt
  have hy : y = ix2 (n0 := 1024) (n1 := 1) (y 0) 0 := by
    funext a
    match a with
    | ⟨0, _⟩ => rfl
    | ⟨1, _⟩ => exact Fin.ext (by show (y 1).val = 0; omega)
  refine (congrArg ((dats m 0 c).after 2 t : S1024x1.Idx → Elt F .f32) hy).trans ((hG t h7 (y 0)).trans ?_)
  congr 1
  funext a
  apply Fin.ext
  match a with
  | ⟨0, _⟩ => show 1024 * (t.val / 8) + (y 0).val = win0_2.index t (0 : Fin 2) * 1024 + 1 * (y 0).val; rw [e0]; omega
  | ⟨1, _⟩ => show 0 = win0_2.index t (1 : Fin 2) * 1 + 1 * (y 1).val; rw [e1]; omega

/-- An index of output 2's array is in point `t`'s block iff each coordinate is in the block's range. -/
theorem mem_blk2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_call0_v18_0).slice (win0_2.rect t)).set ↔ _
  rw [View.set_slice_whole, Rect.mem_set_unit]
  exact Iff.rfl

/-- Row `r` of output 2 is in the block of the writing-back point `8 * (r / 1024) + 7`. -/
theorem cover2 (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_0
  have ht : 8 * ((i 0).val / 1024) + 7 < cfg0.N := by omega
  have h7 : (8 * ((i 0).val / 1024) + 7) % 8 = 7 := by omega
  have e0 : win0_2.index ⟨8 * ((i 0).val / 1024) + 7, ht⟩ (0 : Fin 2) = (8 * ((i 0).val / 1024) + 7) / 8 :=
    (idx_facts2 _).1
  have e1 : win0_2.index ⟨8 * ((i 0).val / 1024) + 7, ht⟩ (1 : Fin 2) = 0 := (idx_facts2 _).2
  refine ⟨⟨8 * ((i 0).val / 1024) + 7, ht⟩, (flush0_2 _).mpr h7, ?_⟩
  rw [mem_blk2]
  intro a
  match a with
  | ⟨0, _⟩ => show win0_2.index _ (0 : Fin 2) * 1024 ≤ (i 0).val ∧ (i 0).val < win0_2.index _ (0 : Fin 2) * 1024 + 1024; rw [e0]; omega
  | ⟨1, _⟩ => show win0_2.index _ (1 : Fin 2) * 1 ≤ (i 1).val ∧ (i 1).val < win0_2.index _ (1 : Fin 2) * 1 + 1; rw [e1]; omega

/-- Output 2's array after the run is `G`, when every writing-back point leaves its block of `G`. -/
theorem final2 (G : S8192x1.Idx → Elt F .f32)
    (hG : ∀ (t : Fin cfg0.N), t.val % 8 = 7 → ∀ p : Fin 1024,
      ((dats m 0 c).after 2 t : S1024x1.Idx → Elt F .f32) (ix2 p 0)
        = G (ix2 ⟨1024 * (t.val / 8) + p.val, by have := t.isLt; have : cfg0.N = 64 := N_0; have := p.isLt; omega⟩ 0)) :
    ((dats m 0 c).arrAt 2 cfg0.N : S8192x1.Idx → Elt F .f32) = G :=
  (dats m 0 c).arrAt_eq_of_cover 2 G (fun t hf => flushed2_eq m c G hG t hf) (cover2)

/-- Output 3's block index at point `t`: row block `t / 8`. -/
theorem idx_facts3 : ∀ t : Fin cfg0.N, win0_3.index t (0 : Fin 2) = t.val / 8 ∧ win0_3.index t (1 : Fin 2) = 0 :=
  (by decide +kernel : ∀ t : Fin grid0.N, _)

/-- What a writing-back point `t` writes to output 3 is block `t` of `G`, when the block left at `t` is `G`
    on rows `1024 * (t / 8) + p`. -/
theorem flushed3_eq (G : S8192x1.Idx → Elt F .f32)
    (hG : ∀ (t : Fin cfg0.N), t.val % 8 = 7 → ∀ p : Fin 1024,
      ((dats m 0 c).after 3 t : S1024x1.Idx → Elt F .f32) (ix2 p 0)
        = G (ix2 ⟨1024 * (t.val / 8) + p.val, by have := t.isLt; have : cfg0.N = 64 := N_0; have := p.isLt; omega⟩ 0))
    (t : Fin cfg0.N) (hf : (cfg0.win 3).flush t = true) :
    (dats m 0 c).flushed 3 t = ((cfg0.win 3).blk t).view.read (Elt F) G := by
  have h7 : t.val % 8 = 7 := (flush0_3 t).mp hf
  obtain ⟨e0, e1⟩ := idx_facts3 t
  show (cfg0.win 3).cut (grid0.coords t) ((dats m 0 c).after 3 t) = _
  refine funext fun (y : S1024x1.Idx) => ?_
  rw [View.read_apply]
  show ((dats m 0 c).after 3 t : S1024x1.Idx → Elt F .f32) y = G (((cfg0.win 3).blk t).view.emb y)
  have hy1 : (y 1).val < 1 := (y 1).isLt
  have hy : y = ix2 (n0 := 1024) (n1 := 1) (y 0) 0 := by
    funext a
    match a with
    | ⟨0, _⟩ => rfl
    | ⟨1, _⟩ => exact Fin.ext (by show (y 1).val = 0; omega)
  refine (congrArg ((dats m 0 c).after 3 t : S1024x1.Idx → Elt F .f32) hy).trans ((hG t h7 (y 0)).trans ?_)
  congr 1
  funext a
  apply Fin.ext
  match a with
  | ⟨0, _⟩ => show 1024 * (t.val / 8) + (y 0).val = win0_3.index t (0 : Fin 2) * 1024 + 1 * (y 0).val; rw [e0]; omega
  | ⟨1, _⟩ => show 0 = win0_3.index t (1 : Fin 2) * 1 + 1 * (y 1).val; rw [e1]; omega

/-- An index of output 3's array is in point `t`'s block iff each coordinate is in the block's range. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_call0_v18_1).slice (win0_3.rect t)).set ↔ _
  rw [View.set_slice_whole, Rect.mem_set_unit]
  exact Iff.rfl

/-- Row `r` of output 3 is in the block of the writing-back point `8 * (r / 1024) + 7`. -/
theorem cover3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 64 := N_0
  have ht : 8 * ((i 0).val / 1024) + 7 < cfg0.N := by omega
  have h7 : (8 * ((i 0).val / 1024) + 7) % 8 = 7 := by omega
  have e0 : win0_3.index ⟨8 * ((i 0).val / 1024) + 7, ht⟩ (0 : Fin 2) = (8 * ((i 0).val / 1024) + 7) / 8 :=
    (idx_facts3 _).1
  have e1 : win0_3.index ⟨8 * ((i 0).val / 1024) + 7, ht⟩ (1 : Fin 2) = 0 := (idx_facts3 _).2
  refine ⟨⟨8 * ((i 0).val / 1024) + 7, ht⟩, (flush0_3 _).mpr h7, ?_⟩
  rw [mem_blk3]
  intro a
  match a with
  | ⟨0, _⟩ => show win0_3.index _ (0 : Fin 2) * 1024 ≤ (i 0).val ∧ (i 0).val < win0_3.index _ (0 : Fin 2) * 1024 + 1024; rw [e0]; omega
  | ⟨1, _⟩ => show win0_3.index _ (1 : Fin 2) * 1 ≤ (i 1).val ∧ (i 1).val < win0_3.index _ (1 : Fin 2) * 1 + 1; rw [e1]; omega

/-- Output 3's array after the run is `G`, when every writing-back point leaves its block of `G`. -/
theorem final3 (G : S8192x1.Idx → Elt F .f32)
    (hG : ∀ (t : Fin cfg0.N), t.val % 8 = 7 → ∀ p : Fin 1024,
      ((dats m 0 c).after 3 t : S1024x1.Idx → Elt F .f32) (ix2 p 0)
        = G (ix2 ⟨1024 * (t.val / 8) + p.val, by have := t.isLt; have : cfg0.N = 64 := N_0; have := p.isLt; omega⟩ 0)) :
    ((dats m 0 c).arrAt 3 cfg0.N : S8192x1.Idx → Elt F .f32) = G :=
  (dats m 0 c).arrAt_eq_of_cover 3 G (fun t hf => flushed3_eq m c G hG t hf) (cover3)

/-- Output 4's block index at point `t`: row block `t / 8` on the first axis, column block `t % 8` on the last. -/
theorem idx_facts4 : ∀ t : Fin cfg0.N, win0_4.index t (0 : Fin 3) = t.val / 8 ∧ win0_4.index t (1 : Fin 3) = 0
    ∧ win0_4.index t (2 : Fin 3) = t.val % 8 :=
  (by decide +kernel : ∀ t : Fin grid0.N, _)

/-- What point `t` writes to output 4 is block `t` of `G`, when the block left at `t` is `G` at
    `(t / 8, 0, 1024 * (t % 8) + q)`. -/
theorem flushed4_eq (G : S8x1x8192.Idx → Elt F .f32)
    (hG : ∀ (t : Fin cfg0.N) (q : Fin 1024),
      ((dats m 0 c).after 4 t : S1x1x1024.Idx → Elt F .f32) (ix3 0 0 q)
        = G (ix3 ⟨t.val / 8, by have := t.isLt; have : cfg0.N = 64 := N_0; omega⟩ 0
              ⟨1024 * (t.val % 8) + q.val, by have := q.isLt; omega⟩))
    (t : Fin cfg0.N) (hf : (cfg0.win 4).flush t = true) :
    (dats m 0 c).flushed 4 t = ((cfg0.win 4).blk t).view.read (Elt F) G := by
  obtain ⟨e0, e1, e2⟩ := idx_facts4 t
  show (cfg0.win 4).cut (grid0.coords t) ((dats m 0 c).after 4 t) = _
  refine funext fun (y : S1x1x1024.Idx) => ?_
  rw [View.read_apply]
  show ((dats m 0 c).after 4 t : S1x1x1024.Idx → Elt F .f32) y = G (((cfg0.win 4).blk t).view.emb y)
  have hy0 : (y 0).val < 1 := (y 0).isLt
  have hy1 : (y 1).val < 1 := (y 1).isLt
  have hy : y = ix3 (n0 := 1) (n1 := 1) (n2 := 1024) 0 0 (y 2) := by
    funext a
    match a with
    | ⟨0, _⟩ => exact Fin.ext (by show (y 0).val = 0; omega)
    | ⟨1, _⟩ => exact Fin.ext (by show (y 1).val = 0; omega)
    | ⟨2, _⟩ => rfl
  refine (congrArg ((dats m 0 c).after 4 t : S1x1x1024.Idx → Elt F .f32) hy).trans ((hG t (y 2)).trans ?_)
  congr 1
  funext a
  apply Fin.ext
  match a with
  | ⟨0, _⟩ => show t.val / 8 = win0_4.index t (0 : Fin 3) * 1 + 1 * (y 0).val; rw [e0]; omega
  | ⟨1, _⟩ => show 0 = win0_4.index t (1 : Fin 3) * 1 + 1 * (y 1).val; rw [e1]; omega
  | ⟨2, _⟩ => show 1024 * (t.val % 8) + (y 2).val = win0_4.index t (2 : Fin 3) * 1024 + 1 * (y 2).val; rw [e2]; omega

/-- An index of output 4's array is in point `t`'s block iff each coordinate is in the block's range. -/
theorem mem_blk4 (t : Fin cfg0.N) (i : S8x1x8192.Idx) :
    i ∈ ((cfg0.win 4).blk t).view.set ↔ ∀ a : Fin 3, win0_4.index t a * S1x1x1024.size a ≤ (i a).val ∧ (i a).val < win0_4.index t a * S1x1x1024.size a + S1x1x1024.size a := by
  show i ∈ ((View.whole main_call0_v18_2).slice (win0_4.rect t)).set ↔ _
  rw [View.set_slice_whole, Rect.mem_set_unit]
  exact Iff.rfl

/-- Entry `(r, 0, k)` of output 4 is in the block of point `8 * r + k / 1024`. -/
theorem cover4 (i : S8x1x8192.Idx) :
    ∃ t : Fin cfg0.N, (cfg0.win 4).flush t = true ∧ i ∈ ((cfg0.win 4).blk t).view.set := by
  have hi0 : (i 0).val < 8 := (i 0).isLt
  have hi1 : (i 1).val < 1 := (i 1).isLt
  have hi2 : (i 2).val < 8192 := (i 2).isLt
  have hN : cfg0.N = 64 := N_0
  have ht : 8 * (i 0).val + (i 2).val / 1024 < cfg0.N := by omega
  have e0 : win0_4.index ⟨8 * (i 0).val + (i 2).val / 1024, ht⟩ (0 : Fin 3) = (8 * (i 0).val + (i 2).val / 1024) / 8 :=
    (idx_facts4 _).1
  have e1 : win0_4.index ⟨8 * (i 0).val + (i 2).val / 1024, ht⟩ (1 : Fin 3) = 0 := (idx_facts4 _).2.1
  have e2 : win0_4.index ⟨8 * (i 0).val + (i 2).val / 1024, ht⟩ (2 : Fin 3) = (8 * (i 0).val + (i 2).val / 1024) % 8 :=
    (idx_facts4 _).2.2
  refine ⟨⟨8 * (i 0).val + (i 2).val / 1024, ht⟩, flush0_4 _, ?_⟩
  rw [mem_blk4]
  intro a
  match a with
  | ⟨0, _⟩ => show win0_4.index _ (0 : Fin 3) * 1 ≤ (i 0).val ∧ (i 0).val < win0_4.index _ (0 : Fin 3) * 1 + 1; rw [e0]; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 1024 ≤ (i 2).val ∧ (i 2).val < win0_4.index _ (2 : Fin 3) * 1024 + 1024; rw [e2]; omega

/-- Output 4's array after the run is `G`, when every point leaves its block of `G`. -/
theorem final4 (G : S8x1x8192.Idx → Elt F .f32)
    (hG : ∀ (t : Fin cfg0.N) (q : Fin 1024),
      ((dats m 0 c).after 4 t : S1x1x1024.Idx → Elt F .f32) (ix3 0 0 q)
        = G (ix3 ⟨t.val / 8, by have := t.isLt; have : cfg0.N = 64 := N_0; omega⟩ 0
              ⟨1024 * (t.val % 8) + q.val, by have := q.isLt; omega⟩)) :
    ((dats m 0 c).arrAt 4 cfg0.N : S8x1x8192.Idx → Elt F .f32) = G :=
  (dats m 0 c).arrAt_eq_of_cover 4 G (fun t hf => flushed4_eq m c G hG t hf) cover4

end Cert.KernelIdeal.Blocks
-- ==== Proof.Pieces.lean ====
/-
  What one run of the kernel body leaves behind, case by case.  The body has three conditionals — first
  column block (reset the running row sum), diagonal tile (record the diagonal), last column block (emit the
  row's log-sum-exp and the recorded diagonal) — and six combinations of them occur on the 8×8 grid.  In
  every case each buffer ends holding ONE covering store, whose value is one of the body's pure terms of the
  two input tiles `x0`, `x1` and of what the two carried accumulators held on entry (`xs0` the running row
  sum, `xs1` the recorded diagonal):
    the running row sum      becomes  k0_pay4 x0 x1 acc   (acc = the zero block after a reset, else xs0);
    the recorded diagonal    becomes  k0_pay6 x0 x1 on a diagonal tile, else stays xs1;
    the column partial sums  are      k0_pay5 x0 x1, always;
    on the last column block the row output is k0_pay7 of the new running sum and the diagonal output is the
    recorded diagonal as it then stands.
-/
import proofs.«142358_j14362370638446_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Zero offsets, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl
theorem out0_A_4_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : cond0_0 i) (hc1 : cond0_1 i) (hc2 : ¬cond0_2 i) (x0 x1 : Vec F S1024x1024 .bf16) :
    out0_A_4 c i a2 h2 a3 h3 a4 h4 a5 h5 a6 h6 a7 h7 a8 h8 hc0 hc1 hc2 x0 x1 = k0_pay5 x0 x1 := by
  unfold out0_A_4
  rw [View.read_writes_eq_canon _ _ _ (cover0_A_4 c i a2 h2 a3 h3 a4 h4 a5 h5 a6 h6 a7 h7 a8 h8 hc0 hc1 hc2 x0 x1)]
  unfold kernelRun0_A
  dsimp only
  sl_unfold_words
  refine (View.canon_cons_unit_zero (S := S1x1x1024) hz3 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem sout0_A_0_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : cond0_0 i) (hc1 : cond0_1 i) (hc2 : ¬cond0_2 i) (x0 x1 : Vec F S1024x1024 .bf16) :
    sout0_A_0 c i a2 h2 a3 h3 a4 h4 a5 h5 a6 h6 a7 h7 a8 h8 hc0 hc1 hc2 x0 x1 = k0_pay4 x0 x1 (k0_pay1 (F := F)) := by
  unfold sout0_A_0
  rw [View.read_writes_eq_canon _ _ _ (scover0_A_0 c i a2 h2 a3 h3 a4 h4 a5 h5 a6 h6 a7 h7 a8 h8 hc0 hc1 hc2 x0 x1)]
  unfold kernelRun0_A
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem out0_B_4_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : ¬cond0_1 i) (hc2 : ¬cond0_2 i) (x0 x1 : Vec F S1024x1024 .bf16) (xs0 xs1 : Vec F S1024x1 .f32) :
    out0_B_4 c i a2 h2 a3 h3 a4 h4 a5 h5 a6 h6 a7 h7 a8 h8 hc0 hc1 hc2 x0 x1 xs0 xs1 = k0_pay5 x0 x1 := by
  unfold out0_B_4
  rw [View.read_writes_eq_canon _ _ _ (cover0_B_4 c i a2 h2 a3 h3 a4 h4 a5 h5 a6 h6 a7 h7 a8 h8 hc0 hc1 hc2 x0 x1 xs0 xs1)]
  unfold kernelRun0_B
  dsimp only
  sl_unfold_words
  refine (View.canon_cons_unit_zero (S := S1x1x1024) hz3 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem sout0_B_0_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : ¬cond0_1 i) (hc2 : ¬cond0_2 i) (x0 x1 : Vec F S1024x1024 .bf16) (xs0 xs1 : Vec F S1024x1 .f32) :
    sout0_B_0 c i a2 h2 a3 h3 a4 h4 a5 h5 a6 h6 a7 h7 a8 h8 hc0 hc1 hc2 x0 x1 xs0 xs1 = k0_pay4 x0 x1 xs0 := by
  unfold sout0_B_0
  rw [View.read_writes_eq_canon _ _ _ (scover0_B_0 c i a2 h2 a3 h3 a4 h4 a5 h5 a6 h6 a7 h7 a8 h8 hc0 hc1 hc2 x0 x1 xs0 xs1)]
  unfold kernelRun0_B
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem out0_C_4_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : ¬cond0_1 i) (hc2 : cond0_2 i) (x0 x1 : Vec F S1024x1024 .bf16) (xs0 xs1 : Vec F S1024x1 .f32) :
    out0_C_4 c i a2 h2 a3 h3 a4 h4 a5 h5 a6 h6 a7 h7 a8 h8 hc0 hc1 hc2 x0 x1 xs0 xs1 = k0_pay5 x0 x1 := by
  unfold out0_C_4
  rw [View.read_writes_eq_canon _ _ _ (cover0_C_4 c i a2 h2 a3 h3 a4 h4 a5 h5 a6 h6 a7 h7 a8 h8 hc0 hc1 hc2 x0 x1 xs0 xs1)]
  unfold kernelRun0_C
  dsimp only
  sl_unfold_words
  refine (View.canon_cons_unit_zero (S := S1x1x1024) hz3 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem sout0_C_0_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : ¬cond0_1 i) (hc2 : cond0_2 i) (x0 x1 : Vec F S1024x1024 .bf16) (xs0 xs1 : Vec F S1024x1 .f32) :
    sout0_C_0 c i a2 h2 a3 h3 a4 h4 a5 h5 a6 h6 a7 h7 a8 h8 hc0 hc1 hc2 x0 x1 xs0 xs1 = k0_pay4 x0 x1 xs0 := by
  unfold sout0_C_0
  rw [View.read_writes_eq_canon _ _ _ (scover0_C_0 c i a2 h2 a3 h3 a4 h4 a5 h5 a6 h6 a7 h7 a8 h8 hc0 hc1 hc2 x0 x1 xs0 xs1)]
  unfold kernelRun0_C
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem out0_D_4_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : cond0_0 i) (hc1 : ¬cond0_1 i) (hc2 : ¬cond0_2 i) (x0 x1 : Vec F S1024x1024 .bf16) (xs1 : Vec F S1024x1 .f32) :
    out0_D_4 c i a2 h2 a3 h3 a4 h4 a5 h5 a6 h6 a7 h7 a8 h8 hc0 hc1 hc2 x0 x1 xs1 = k0_pay5 x0 x1 := by
  unfold out0_D_4
  rw [View.read_writes_eq_canon _ _ _ (cover0_D_4 c i a2 h2 a3 h3 a4 h4 a5 h5 a6 h6 a7 h7 a8 h8 hc0 hc1 hc2 x0 x1 xs1)]
  unfold kernelRun0_D
  dsimp only
  sl_unfold_words
  refine (View.canon_cons_unit_zero (S := S1x1x1024) hz3 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem sout0_D_0_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : cond0_0 i) (hc1 : ¬cond0_1 i) (hc2 : ¬cond0_2 i) (x0 x1 : Vec F S1024x1024 .bf16) (xs1 : Vec F S1024x1 .f32) :
    sout0_D_0 c i a2 h2 a3 h3 a4 h4 a5 h5 a6 h6 a7 h7 a8 h8 hc0 hc1 hc2 x0 x1 xs1 = k0_pay4 x0 x1 (k0_pay1 (F := F)) := by
  unfold sout0_D_0
  rw [View.read_writes_eq_canon _ _ _ (scover0_D_0 c i a2 h2 a3 h3 a4 h4 a5 h5 a6 h6 a7 h7 a8 h8 hc0 hc1 hc2 x0 x1 xs1)]
  unfold kernelRun0_D
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem out0_E_4_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (hc2 : ¬cond0_2 i) (x0 x1 : Vec F S1024x1024 .bf16) (xs0 : Vec F S1024x1 .f32) :
    out0_E_4 c i a2 h2 a3 h3 a4 h4 a5 h5 a6 h6 a7 h7 a8 h8 hc0 hc1 hc2 x0 x1 xs0 = k0_pay5 x0 x1 := by
  unfold out0_E_4
  rw [View.read_writes_eq_canon _ _ _ (cover0_E_4 c i a2 h2 a3 h3 a4 h4 a5 h5 a6 h6 a7 h7 a8 h8 hc0 hc1 hc2 x0 x1 xs0)]
  unfold kernelRun0_E
  dsimp only
  sl_unfold_words
  refine (View.canon_cons_unit_zero (S := S1x1x1024) hz3 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem sout0_E_0_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (hc2 : ¬cond0_2 i) (x0 x1 : Vec F S1024x1024 .bf16) (xs0 : Vec F S1024x1 .f32) :
    sout0_E_0 c i a2 h2 a3 h3 a4 h4 a5 h5 a6 h6 a7 h7 a8 h8 hc0 hc1 hc2 x0 x1 xs0 = k0_pay4 x0 x1 xs0 := by
  unfold sout0_E_0
  rw [View.read_writes_eq_canon _ _ _ (scover0_E_0 c i a2 h2 a3 h3 a4 h4 a5 h5 a6 h6 a7 h7 a8 h8 hc0 hc1 hc2 x0 x1 xs0)]
  unfold kernelRun0_E
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem out0_F_4_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (hc2 : cond0_2 i) (x0 x1 : Vec F S1024x1024 .bf16) (xs0 : Vec F S1024x1 .f32) :
    out0_F_4 c i a2 h2 a3 h3 a4 h4 a5 h5 a6 h6 a7 h7 a8 h8 hc0 hc1 hc2 x0 x1 xs0 = k0_pay5 x0 x1 := by
  unfold out0_F_4
  rw [View.read_writes_eq_canon _ _ _ (cover0_F_4 c i a2 h2 a3 h3 a4 h4 a5 h5 a6 h6 a7 h7 a8 h8 hc0 hc1 hc2 x0 x1 xs0)]
  unfold kernelRun0_F
  dsimp only
  sl_unfold_words
  refine (View.canon_cons_unit_zero (S := S1x1x1024) hz3 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem sout0_F_0_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (hc2 : cond0_2 i) (x0 x1 : Vec F S1024x1024 .bf16) (xs0 : Vec F S1024x1 .f32) :
    sout0_F_0 c i a2 h2 a3 h3 a4 h4 a5 h5 a6 h6 a7 h7 a8 h8 hc0 hc1 hc2 x0 x1 xs0 = k0_pay4 x0 x1 xs0 := by
  unfold sout0_F_0
  rw [View.read_writes_eq_canon _ _ _ (scover0_F_0 c i a2 h2 a3 h3 a4 h4 a5 h5 a6 h6 a7 h7 a8 h8 hc0 hc1 hc2 x0 x1 xs0)]
  unfold kernelRun0_F
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem sout0_A_1_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : cond0_0 i) (hc1 : cond0_1 i) (hc2 : ¬cond0_2 i) (x0 x1 : Vec F S1024x1024 .bf16) :
    sout0_A_1 c i a2 h2 a3 h3 a4 h4 a5 h5 a6 h6 a7 h7 a8 h8 hc0 hc1 hc2 x0 x1 = k0_pay6 x0 x1 := by
  unfold sout0_A_1
  rw [View.read_writes_eq_canon _ _ _ (scover0_A_1 c i a2 h2 a3 h3 a4 h4 a5 h5 a6 h6 a7 h7 a8 h8 hc0 hc1 hc2 x0 x1)]
  unfold kernelRun0_A
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem sout0_E_1_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (hc2 : ¬cond0_2 i) (x0 x1 : Vec F S1024x1024 .bf16) (xs0 : Vec F S1024x1 .f32) :
    sout0_E_1 c i a2 h2 a3 h3 a4 h4 a5 h5 a6 h6 a7 h7 a8 h8 hc0 hc1 hc2 x0 x1 xs0 = k0_pay6 x0 x1 := by
  unfold sout0_E_1
  rw [View.read_writes_eq_canon _ _ _ (scover0_E_1 c i a2 h2 a3 h3 a4 h4 a5 h5 a6 h6 a7 h7 a8 h8 hc0 hc1 hc2 x0 x1 xs0)]
  unfold kernelRun0_E
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem sout0_F_1_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (hc2 : cond0_2 i) (x0 x1 : Vec F S1024x1024 .bf16) (xs0 : Vec F S1024x1 .f32) :
    sout0_F_1 c i a2 h2 a3 h3 a4 h4 a5 h5 a6 h6 a7 h7 a8 h8 hc0 hc1 hc2 x0 x1 xs0 = k0_pay6 x0 x1 := by
  unfold sout0_F_1
  rw [View.read_writes_eq_canon _ _ _ (scover0_F_1 c i a2 h2 a3 h3 a4 h4 a5 h5 a6 h6 a7 h7 a8 h8 hc0 hc1 hc2 x0 x1 xs0)]
  unfold kernelRun0_F
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem out0_C_2_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : ¬cond0_1 i) (hc2 : cond0_2 i) (x0 x1 : Vec F S1024x1024 .bf16) (xs0 xs1 : Vec F S1024x1 .f32) :
    out0_C_2 c i a2 h2 a3 h3 a4 h4 a5 h5 a6 h6 a7 h7 a8 h8 hc0 hc1 hc2 x0 x1 xs0 xs1 = k0_pay7 (k0_pay4 x0 x1 xs0) := by
  unfold out0_C_2
  rw [View.read_writes_eq_canon _ _ _ (cover0_C_2 c i a2 h2 a3 h3 a4 h4 a5 h5 a6 h6 a7 h7 a8 h8 hc0 hc1 hc2 x0 x1 xs0 xs1)]
  unfold kernelRun0_C
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem out0_F_2_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (hc2 : cond0_2 i) (x0 x1 : Vec F S1024x1024 .bf16) (xs0 : Vec F S1024x1 .f32) :
    out0_F_2 c i a2 h2 a3 h3 a4 h4 a5 h5 a6 h6 a7 h7 a8 h8 hc0 hc1 hc2 x0 x1 xs0 = k0_pay7 (k0_pay4 x0 x1 xs0) := by
  unfold out0_F_2
  rw [View.read_writes_eq_canon _ _ _ (cover0_F_2 c i a2 h2 a3 h3 a4 h4 a5 h5 a6 h6 a7 h7 a8 h8 hc0 hc1 hc2 x0 x1 xs0)]
  unfold kernelRun0_F
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem out0_C_3_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : ¬cond0_1 i) (hc2 : cond0_2 i) (x0 x1 : Vec F S1024x1024 .bf16) (xs0 xs1 : Vec F S1024x1 .f32) :
    out0_C_3 c i a2 h2 a3 h3 a4 h4 a5 h5 a6 h6 a7 h7 a8 h8 hc0 hc1 hc2 x0 x1 xs0 xs1 = xs1 := by
  unfold out0_C_3
  rw [View.read_writes_eq_canon _ _ _ (cover0_C_3 c i a2 h2 a3 h3 a4 h4 a5 h5 a6 h6 a7 h7 a8 h8 hc0 hc1 hc2 x0 x1 xs0 xs1)]
  unfold kernelRun0_C
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

theorem out0_F_3_eq (c : Dev nD) (i : grid0.Coords) (a2 : Memref sig .tc .vmem S1024x1024 .bf16) (h2 : a2.IsWhole) (a3 : Memref sig .tc .vmem S1024x1024 .bf16) (h3 : a3.IsWhole) (a4 : Memref sig .tc .vmem S1024x1 .f32) (h4 : a4.IsWhole) (a5 : Memref sig .tc .vmem S1024x1 .f32) (h5 : a5.IsWhole) (a6 : Memref sig .tc .vmem S1x1x1024 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (hc2 : cond0_2 i) (x0 x1 : Vec F S1024x1024 .bf16) (xs0 : Vec F S1024x1 .f32) :
    out0_F_3 c i a2 h2 a3 h3 a4 h4 a5 h5 a6 h6 a7 h7 a8 h8 hc0 hc1 hc2 x0 x1 xs0 = k0_pay6 x0 x1 := by
  unfold out0_F_3
  rw [View.read_writes_eq_canon _ _ _ (cover0_F_3 c i a2 h2 a3 h3 a4 h4 a5 h5 a6 h6 a7 h7 a8 h8 hc0 hc1 hc2 x0 x1 xs0)]
  unfold kernelRun0_F
  dsimp only
  sl_unfold_words
  refine (View.canon_cons_unit_zero (S := S1024x1) hz2 _ _ _).trans ?_
  simp only [View.readAt_eq_ld, View.readCov_unit_zero (S := S1024x1) _ hz2, h2.read_unread, h3.read_unread, h7.read_unread, h8.read_unread, View.ld_unit_zero (S := S1024x1024) hz2, View.ld_unit_zero (S := S1024x1) hz2]

end Cert.KernelIdeal.Pieces
end
-- ==== Proof.Sweep.lean ====
/-
  What the frame's per-point contents hold is exactly the two carried quantities of the sweep (the running row sum
  and the recorded diagonal), the column partial sums of the point's tile, and — on a last column block — the row's
  log-sum-exp term and the recorded diagonal: by induction on the point, one step per control case.
-/
import proofs.«142358_j14362370638446_2_alg».proof.Proof.SweepDefs
import proofs.«142358_j14362370638446_2_alg».proof.Proof.Pieces

set_option maxRecDepth 16384

noncomputable section

open Idealize.ShloMosaic Idealize.ShloMosaic.TcCoe Idealize.SL.Sem

namespace Cert.KernelIdeal.Sweep

open Cert.KernelIdeal Cert.KernelIdeal.Gen Cert.KernelIdeal.Pieces

variable {F : FTy → Type} [FloatOps F]
variable (m : (ℓ : Loc nD τ sig) → Buf (Elt F) ℓ)

/-- What the frame's per-point contents are, in terms of the two carried quantities: the carried scratch holds
    them, the column-partial output holds the tile's column sums, and on a last column block the row output holds
    the log-sum-exp term of the finished row sum and the diagonal output the recorded diagonal. -/
def Inv (c : Dev nD) (n : ℕ) (h : n < cfg0.N) : Prop :=
  (outsAt0 m c n h).2.2.2.1 = acc m c n h
  ∧ (outsAt0 m c n h).2.2.2.2 = dg m c n h
  ∧ (outsAt0 m c n h).2.2.1 = k0_pay5 (tileX m c n h) (tileY m c n h)
  ∧ (n % 8 = 7 → (outsAt0 m c n h).1 = k0_pay7 (acc m c n h) ∧ (outsAt0 m c n h).2.1 = dg m c n h)

set_option maxHeartbeats 4000000 in
theorem inv (c : Dev nD) : ∀ (n : ℕ) (h : n < cfg0.N), Inv m c n h
  | 0, h => by
    have e : outsAt0 m c 0 h = _ := outsAt0_A m c ⟨0, h⟩ rfl rfl (fun h7 => absurd h7 (by show ¬(0 : ℕ) % 8 = 7; decide))
    unfold Inv
    rw [e]
    dsimp only
    refine ⟨?_, ?_, ?_, fun h7 => absurd h7 (by decide)⟩
    · exact (sout0_A_0_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ _ _ (iblk m c 0 ⟨0, h⟩) (iblk m c 1 ⟨0, h⟩)).trans (acc_zero m c h).symm
    · exact (sout0_A_1_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ _ _ (iblk m c 0 ⟨0, h⟩) (iblk m c 1 ⟨0, h⟩)).trans (dg_zero m c h).symm
    · exact out0_A_4_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ _ _ (iblk m c 0 ⟨0, h⟩) (iblk m c 1 ⟨0, h⟩)
  | n + 1, h => by
    have hN : n + 1 < 64 := lt_of_lt_of_eq h (show cfg0.N = 64 from N_0)
    obtain ⟨ih0, ih1, -, -⟩ := inv c n (Nat.lt_of_succ_lt h)
    have e0 : (outsAt0 m c (n + 1 - 1) (Nat.lt_of_le_of_lt (Nat.sub_le _ _) h)).2.2.2.1 = acc m c n (Nat.lt_of_succ_lt h) := ih0
    have e1 : (outsAt0 m c (n + 1 - 1) (Nat.lt_of_le_of_lt (Nat.sub_le _ _) h)).2.2.2.2 = dg m c n (Nat.lt_of_succ_lt h) := ih1
    unfold Inv
    by_cases h0 : (n + 1) % 8 = 0
    · have h2 : ¬(n + 1) % 8 = 7 := by omega
      have h1 : ¬(n + 1) % 9 = 0 := by omega
      have e : outsAt0 m c (n + 1) h = _ := outsAt0_D m c ⟨n + 1, h⟩ h0 h1 h2
      rw [e]
      dsimp only
      refine ⟨?_, ?_, ?_, fun h7 => absurd h7 h2⟩
      · exact (sout0_D_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _).trans (acc_reset m c n h h0).symm
      · rw [dg_keep m c n h h1, ← e1]; rfl
      · exact out0_D_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _
    · by_cases h1 : (n + 1) % 9 = 0
      · by_cases h2 : (n + 1) % 8 = 7
        · have hh := h2
          have e : outsAt0 m c (n + 1) h = _ := outsAt0_F m c ⟨n + 1, h⟩ h0 h1 h2
          rw [e]
          dsimp only
          refine ⟨?_, ?_, ?_, fun _ => ⟨by rw [acc_step m c n h h0, ← e0]; exact out0_F_2_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _, (out0_F_3_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _).trans (dg_take m c n h h1).symm⟩⟩
          · rw [acc_step m c n h h0, ← e0]; exact sout0_F_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _
          · exact (sout0_F_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _).trans (dg_take m c n h h1).symm
          · exact out0_F_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _
        · have hh := h2
          have e : outsAt0 m c (n + 1) h = _ := outsAt0_E m c ⟨n + 1, h⟩ h0 h1 h2
          rw [e]
          dsimp only
          refine ⟨?_, ?_, ?_, fun h7 => absurd h7 h2⟩
          · rw [acc_step m c n h h0, ← e0]; exact sout0_E_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _
          · exact (sout0_E_1_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _).trans (dg_take m c n h h1).symm
          · exact out0_E_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _
      · by_cases h2 : (n + 1) % 8 = 7
        · have hh := h2
          have e : outsAt0 m c (n + 1) h = _ := outsAt0_C m c ⟨n + 1, h⟩ h0 h1 h2
          rw [e]
          dsimp only
          refine ⟨?_, ?_, ?_, fun _ => ⟨by rw [acc_step m c n h h0, ← e0]; exact out0_C_2_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _ _, by rw [dg_keep m c n h h1, ← e1]; exact out0_C_3_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _ _⟩⟩
          · rw [acc_step m c n h h0, ← e0]; exact sout0_C_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _ _
          · rw [dg_keep m c n h h1, ← e1]; rfl
          · exact out0_C_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _ _
        · have hh := h2
          have e : outsAt0 m c (n + 1) h = _ := outsAt0_B m c ⟨n + 1, h⟩ h0 h1 h2
          rw [e]
          dsimp only
          refine ⟨?_, ?_, ?_, fun h7 => absurd h7 h2⟩
          · rw [acc_step m c n h h0, ← e0]; exact sout0_B_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _ _
          · rw [dg_keep m c n h h1, ← e1]; rfl
          · exact out0_B_4_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ _ _ (iblk m c 0 ⟨n + 1, h⟩) (iblk m c 1 ⟨n + 1, h⟩) _ _

end Cert.KernelIdeal.Sweep
end
-- ==== Proof.LibBlockSum.lean ====
/-
  Block decomposition of a finite sum: a sum over `Fin (a * b)` is the sum over the `a` consecutive
  blocks of length `b` of the sums inside each block.  Stated in any additive commutative monoid, and
  once more at the literal sizes `8192 = 8 * 1024` with no cast in the statement.
-/
import Mathlib.Algebra.BigOperators.Fin
import Mathlib.Logic.Equiv.Fin.Basic

open scoped BigOperators

namespace Cert.Math

/-- The position `b * i + p` of entry `p` of block `i` lies below `a * b`. -/
theorem block_index_lt {a b : ℕ} (i : Fin a) (p : Fin b) : b * i.val + p.val < a * b := by
  have hi : i.val + 1 ≤ a := i.isLt
  have hp : p.val < b := p.isLt
  calc b * i.val + p.val < b * i.val + b := Nat.add_lt_add_left hp _
    _ = (i.val + 1) * b := by rw [Nat.succ_mul, Nat.mul_comm]
    _ ≤ a * b := Nat.mul_le_mul_right _ hi

/-- A sum over `Fin (a * b)` split into `a` consecutive blocks of length `b`: the pair `(i, p)`
    names position `b * i + p`, and the pairs enumerate every position exactly once. -/
theorem sum_fin_mul {M : Type*} [AddCommMonoid M] (a b : ℕ) (f : Fin (a * b) → M) :
    ∑ r, f r = ∑ i : Fin a, ∑ p : Fin b, f ⟨b * i.val + p.val, block_index_lt i p⟩ := by
  rw [← Equiv.sum_comp (finProdFinEquiv (m := a) (n := b)) f, Fintype.sum_prod_type]
  refine Finset.sum_congr rfl fun i _ => Finset.sum_congr rfl fun p _ => ?_
  congr 1
  apply Fin.ext
  show p.val + b * i.val = b * i.val + p.val
  exact Nat.add_comm _ _

/-- The same at `8192 = 8 * 1024`: eight blocks of 1024 consecutive positions. -/
theorem sum_blocks_8192 {M : Type*} [AddCommMonoid M] (f : Fin 8192 → M) :
    ∑ r : Fin 8192, f r
      = ∑ i : Fin 8, ∑ p : Fin 1024,
          f ⟨1024 * i.val + p.val, by have := i.isLt; have := p.isLt; omega⟩ :=
  sum_fin_mul 8 1024 f

end Cert.Math
-- ==== Proof.Tail.lean ====
/-
  The host lines that follow the tiled sweep, read as one function of the three arrays the sweep leaves — the row
  log-sum-exps, the diagonal of the similarity matrix, and the per-row-block partial column sums of the shifted
  exponentials — and shown to assemble the swept form of the symmetric contrastive loss: the partial column sums
  add up to the full column sums (a sum over 8192 rows is the sum over eight blocks of 1024 rows), their logarithm
  plus the shift is the column log-sum-exp, and each of the two means is a sum over the rows divided by the row count.
-/
import proofs.«142358_j14362370638446_2_alg».proof.Proof.Gen.KernelIdeal.Frame
import proofs.«142358_j14362370638446_2_alg».proof.Proof.Spec
import proofs.«142358_j14362370638446_2_alg».proof.Proof.LibBlockSum
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws
import Idealize.ShloMosaic.Lib.StableHlo.Run

noncomputable section

open scoped BigOperators

namespace Cert.KernelIdeal.Tail

open Cert.KernelIdeal Cert.KernelIdeal.Gen Idealize.ShloMosaic Idealize.ShloMosaic.ValueIdx

/-- The host lines after the region, as one function of the three arrays the region leaves. -/
def tailTerm (lse diag : S8192x1.Idx → EReal) (colp : S8x1x8192.Idx → EReal) : S_.Idx → EReal :=
  mulf (F := Ideal)
    (addf (F := Ideal)
      (Host.negf (F := Ideal) (Host.divf (F := Ideal)
        (Host.reduceAdd (F := Ideal) (subf (F := Ideal) diag lse) (constant (F := Ideal) S_ .f32 0x00000000#32) reducesTo_S8192x1_S_d0_1 h_S_)
        (constant (F := Ideal) S_ .f32 0x46000000#32)))
      (Host.negf (F := Ideal) (Host.divf (F := Ideal)
        (Host.reduceAdd (F := Ideal)
          (subf (F := Ideal) diag
            (shapeCast S8192x1
              (addf (F := Ideal)
                (Host.log (F := Ideal) (Host.reduceAdd (F := Ideal) colp (constant (F := Ideal) S_ .f32 0x00000000#32) reducesTo_S8x1x8192_S1x8192_d0 h_S_))
                (broadcastInDim S1x8192 ![] bcast_S_S1x8192 (constant (F := Ideal) S_ .f32 0x40400000#32)))
              shapeCasts_S1x8192_S8192x1))
          (constant (F := Ideal) S_ .f32 0x00000000#32) reducesTo_S8192x1_S_d0_1 h_S_)
        (constant (F := Ideal) S_ .f32 0x46000000#32))))
    (constant (F := Ideal) S_ .f32 0x3F000000#32)

/-! ## Reading the host lines at an index -/

/-- A sum over every index of an `[8192, 1]` array is the sum over its rows. -/
theorem sum_S8192x1 (f : S8192x1.Idx → EReal) : ∑ i : S8192x1.Idx, f i = ∑ r : Fin 8192, f (ix2 r 0) := by
  rw [show (∑ i : S8192x1.Idx, f i) = ∑ a : Fin 8192, ∑ b : Fin 1, f (ix2 a b) from sum_idx2 f]
  exact Finset.sum_congr rfl fun a _ => Fin.sum_univ_one _

/-- The host's sum of an `[8192, 1]` array over both axes, from the zero word: the sum over the rows. -/
theorem reduceAll_apply (x : S8192x1.Idx → EReal) (j : S_.Idx) :
    Host.reduceAdd (F := Ideal) x (constant (F := Ideal) S_ .f32 0x00000000#32) reducesTo_S8192x1_S_d0_1 h_S_ j
      = ∑ r : Fin 8192, x (ix2 r 0) := by
  rw [hostReduceAdd_apply, Ideal.hostReduceAdd_total reducesTo_S8192x1_S_d0_1 (fun b => b.elim0) x _ j, sum_S8192x1]
  rw [show (constant (F := Ideal) S_ .f32 0x00000000#32) (Shape.Idx.first h_S_) = 0 from Ideal.ofBits_zero_f32, zero_add]

/-- The host's sum of an `[8, 1, 8192]` array over its leading axis, from the zero word, read at column `k`:
    the sum of the eight entries of that column. -/
theorem reduceLead_apply (x : S8x1x8192.Idx → EReal) (k : Fin 8192) :
    Host.reduceAdd (F := Ideal) x (constant (F := Ideal) S_ .f32 0x00000000#32) reducesTo_S8x1x8192_S1x8192_d0 h_S_ (ix2 0 k)
      = ∑ i : Fin 8, x (ix3 i 0 k) := by
  rw [hostReduceAdd_apply, Ideal.hostReduceAdd_single reducesTo_S8x1x8192_S1x8192_d0 (by decide)]
  rw [show (constant (F := Ideal) S_ .f32 0x00000000#32) (Shape.Idx.first h_S_) = 0 from Ideal.ofBits_zero_f32, zero_add]
  refine Finset.sum_congr rfl fun i _ => ?_
  exact congrArg x (funext fun a => Fin.ext (by
    match a with
    | ⟨0, _⟩ => rfl
    | ⟨1, _⟩ => rfl
    | ⟨2, _⟩ => rfl))

/-- A `[1, 8192]` array reshaped to `[8192, 1]`, read at row `r`: the operand's entry `r`. -/
theorem reshape_apply (v : S1x8192.Idx → EReal) (r : Fin 8192) :
    shapeCast S8192x1 v shapeCasts_S1x8192_S8192x1 (ix2 r 0) = v (ix2 0 r) :=
  shapeCast_apply v shapeCasts_S1x8192_S8192x1 (ix2 r 0) (ix2 0 r) (by
    rw [Shape.rowMajor_val_two, Shape.rowMajor_val_two]
    show 0 * 8192 + r.val = r.val * 1 + 0
    omega)

/-! ## The tail is the loss -/

/-- The column log-sum-exp array the host lines rebuild from the per-block partial column sums: at row `r` the
    logarithm of the eight partial sums of column `r` added up, plus the shift. -/
theorem colLse_apply (X Y : Fin 8192 → Fin 1024 → EReal) (colp : S8x1x8192.Idx → EReal)
    (hc : ∀ (i : Fin 8) (k : Fin 8192), colp (ix3 i 0 k)
      = ∑ p : Fin 1024, Cert.Spec.expK X Y ⟨1024 * i.val + p.val, by have := i.isLt; have := p.isLt; omega⟩ k)
    (r : Fin 8192) :
    shapeCast S8192x1
        (addf (F := Ideal)
          (Host.log (F := Ideal) (Host.reduceAdd (F := Ideal) colp (constant (F := Ideal) S_ .f32 0x00000000#32) reducesTo_S8x1x8192_S1x8192_d0 h_S_))
          (broadcastInDim S1x8192 ![] bcast_S_S1x8192 (constant (F := Ideal) S_ .f32 0x40400000#32)))
        shapeCasts_S1x8192_S8192x1 (ix2 r 0)
      = Cert.Spec.colLseK X Y r := by
  rw [reshape_apply]
  show Ideal.log (Host.reduceAdd (F := Ideal) colp (constant (F := Ideal) S_ .f32 0x00000000#32) reducesTo_S8x1x8192_S1x8192_d0 h_S_ (ix2 0 r))
      + broadcastInDim S1x8192 ![] bcast_S_S1x8192 (constant (F := Ideal) S_ .f32 0x40400000#32) (ix2 0 r) = _
  rw [reduceLead_apply, broadcastInDim_scalar_apply]
  unfold Cert.Spec.colLseK
  rw [Cert.Math.sum_blocks_8192 (fun i => Cert.Spec.expK X Y i r)]
  refine congrArg₂ (· + ·) (congrArg Ideal.log (Finset.sum_congr rfl fun i _ => hc i r)) rfl

/-- The host lines after the region compute the swept loss from the three arrays the region leaves: the row
    log-sum-exps, the diagonal of the similarity, and the per-block partial column sums of the shifted exponentials.
    Both means are sums over the rows divided by the row count; the column sums are the block sums added up. -/
theorem tailTerm_eq (X Y : Fin 8192 → Fin 1024 → EReal) (lse diag : S8192x1.Idx → EReal) (colp : S8x1x8192.Idx → EReal)
    (hl : ∀ r : Fin 8192, lse (ix2 r 0) = Cert.Spec.rowLseK X Y r)
    (hd : ∀ r : Fin 8192, diag (ix2 r 0) = Cert.Spec.simK X Y r r)
    (hc : ∀ (i : Fin 8) (k : Fin 8192), colp (ix3 i 0 k)
      = ∑ p : Fin 1024, Cert.Spec.expK X Y ⟨1024 * i.val + p.val, by have := i.isLt; have := p.isLt; omega⟩ k) :
    tailTerm lse diag colp = fun _ => Cert.Spec.lossK X Y := by
  funext j
  have h1 := reduceAll_apply (subf (F := Ideal) (φ := .f32) diag lse) j
  have h2 := reduceAll_apply (subf (F := Ideal) (φ := .f32) diag
    (shapeCast S8192x1
      (addf (F := Ideal)
        (Host.log (F := Ideal) (Host.reduceAdd (F := Ideal) colp (constant (F := Ideal) S_ .f32 0x00000000#32) reducesTo_S8x1x8192_S1x8192_d0 h_S_))
        (broadcastInDim S1x8192 ![] bcast_S_S1x8192 (constant (F := Ideal) S_ .f32 0x40400000#32)))
      shapeCasts_S1x8192_S8192x1)) j
  have g1 : (∑ r : Fin 8192, subf (F := Ideal) (φ := .f32) diag lse (ix2 r 0))
      = ∑ r : Fin 8192, (Cert.Spec.simK X Y r r - Cert.Spec.rowLseK X Y r) :=
    Finset.sum_congr rfl fun r _ => by
      show diag (ix2 r 0) - lse (ix2 r 0) = _
      rw [hd r, hl r]
  have g2 : (∑ r : Fin 8192, subf (F := Ideal) (φ := .f32) diag
      (shapeCast S8192x1
        (addf (F := Ideal)
          (Host.log (F := Ideal) (Host.reduceAdd (F := Ideal) colp (constant (F := Ideal) S_ .f32 0x00000000#32) reducesTo_S8x1x8192_S1x8192_d0 h_S_))
          (broadcastInDim S1x8192 ![] bcast_S_S1x8192 (constant (F := Ideal) S_ .f32 0x40400000#32)))
        shapeCasts_S1x8192_S8192x1) (ix2 r 0))
      = ∑ r : Fin 8192, (Cert.Spec.simK X Y r r - Cert.Spec.colLseK X Y r) :=
    Finset.sum_congr rfl fun r _ => by
      show diag (ix2 r 0) - shapeCast S8192x1 _ shapeCasts_S1x8192_S8192x1 (ix2 r 0) = _
      rw [hd r, colLse_apply X Y colp hc r]
  rw [g1] at h1
  rw [g2] at h2
  unfold Cert.Spec.lossK
  rw [← h1, ← h2]
  rfl

/-! ## The result buffer after the host lines -/

set_option maxHeartbeats 4000000 in
/-- What the result buffer holds once the host lines after the region have run: `tailTerm` of the three arrays the
    region leaves. Each line's result is its function applied to its operands' contents; the three arrays are read
    where the region left them. -/
theorem afterTail_main_v0 (m : (ℓ : Loc nD τ sig) → Buf (Elt Ideal) ℓ) (c : Dev nD) :
    Pipeline.afterTail₀ cfgs (dats m) 0 (V0 m) [hostOps1] c main_v0
      = tailTerm ((dats m 0 c).arrAt 2 cfg0.N) ((dats m 0 c).arrAt 3 cfg0.N) ((dats m 0 c).arrAt 4 cfg0.N) := by
  have e0 := Pipeline.withArrays_arr (Val := Elt Ideal) spec0 launch0.win.arr_inj c (V0 m c) (fun w => (dats m 0 c).arrAt w cfg0.N) 2
  have e1 := Pipeline.withArrays_arr (Val := Elt Ideal) spec0 launch0.win.arr_inj c (V0 m c) (fun w => (dats m 0 c).arrAt w cfg0.N) 3
  have e2 := Pipeline.withArrays_arr (Val := Elt Ideal) spec0 launch0.win.arr_inj c (V0 m c) (fun w => (dats m 0 c).arrAt w cfg0.N) 4
  unfold Pipeline.afterTail₀
  show StableHlo.after hostOps1 _ (Proc.devRef .tc main_v0) = _
  after_results_simp
  rw [show Pipeline.withArrays (cfgs 0).spec c (V0 m c) (fun w => (dats m 0 c).arrAt w (cfgs 0).N) (Proc.devRef .tc main_call0_v18_0) = (dats m 0 c).arrAt 2 cfg0.N from e0,
    show Pipeline.withArrays (cfgs 0).spec c (V0 m c) (fun w => (dats m 0 c).arrAt w (cfgs 0).N) (Proc.devRef .tc main_call0_v18_1) = (dats m 0 c).arrAt 3 cfg0.N from e1,
    show Pipeline.withArrays (cfgs 0).spec c (V0 m c) (fun w => (dats m 0 c).arrAt w (cfgs 0).N) (Proc.devRef .tc main_call0_v18_2) = (dats m 0 c).arrAt 4 cfg0.N from e2]
  rfl

/-- The result buffer is unscoped and is no window's array: it is one of the buffers that bypass the region. -/
theorem main_v0_mem_rest : main_v0 ∈ Pipeline.restRefs sig cfg0.spec :=
  Pipeline.mem_restRefs_of main_v0 rfl (by decide)

end Cert.KernelIdeal.Tail

end
-- ==== Proof.Payloads.lean ====
/-
  The kernel body's arithmetic, read one element at a time.

  The body of the sweep computes, from a block `x` of rows of the first matrix and a block `y` of rows of the
  second (both 1024 × 1024), the scaled similarities `s p q = (∑ d, x p d * y q d) * 2`, their shifted
  exponentials `e p q = exp (s p q - 3)`, the row sums of `e` added to a running column of partial sums, the
  column sums of `e`, the diagonal `s p p` (taken as the lane sum of `s` masked to the entries whose two
  coordinates agree), and, once a row's sum is complete, its logarithm with the shift added back. Each theorem
  below states one of these seven values at explicit coordinates, as a plain sum or a plain scalar expression
  over the extended reals; nothing here depends on the grid or on memory.
-/
import proofs.«142358_j14362370638446_2_alg».proof.Proof.Gen.KernelIdeal.Skeleton
import proofs.«142358_j14362370638446_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.SL.Sem Idealize.ShloMosaic.ValueIdx

/-! ## Small facts about layout and words -/

/-- An `[a]` array cast to the column `[a, 1]` reads, at `(i, u)`, the operand at `i`, whatever the unit
    coordinate `u`: both indices have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two coordinates below 1024 have the same 32-bit word exactly when they are equal (1024 < 2 ^ 32, so neither
    wraps). -/
theorem ofNat32_inj (p k : Fin 1024) : BitVec.ofNat 32 p.val = BitVec.ofNat 32 k.val ↔ p = k := by
  constructor
  · intro h
    have h' := congrArg BitVec.toNat h
    simp only [BitVec.toNat_ofNat] at h'
    have hp := p.isLt
    have hq := k.isLt
    exact Fin.ext (by omega)
  · intro h; rw [h]

/-- The select on "row coordinate = lane coordinate" keeps the entry on the diagonal and puts zero elsewhere. -/
theorem diag_select (p k : Fin 1024) (x : EReal) :
    Scalar.select (IntOp.cmpi .eq (BitVec.ofNat 32 p.val) (BitVec.ofNat 32 k.val)) x (Ideal.ofBits .f32 0x00000000#32)
      = if p = k then x else 0 := by
  by_cases h : p = k
  · rw [if_pos h, IntOp.cmpi_eq.2 ((ofNat32_inj p k).2 h)]
    exact select_one _ _
  · rw [if_neg h, eq_zero_of_ne_one (fun hc => h ((ofNat32_inj p k).1 (IntOp.cmpi_eq.1 hc)))]
    exact (select_zero _ _).trans Ideal.ofBits_zero_f32

/-! ## The matrix product's operand indices

The product contracts the second axis of its left operand with the first axis of its right operand: at output
`(i₀, i₁)` and contraction coordinate `k` it reads the left operand at `(i₀, k)` and the right at `(k, i₁)`. -/

theorem lhs_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem lhs_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k

theorem rhs_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k

theorem rhs_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-! ## The seven values -/

/-- The running column of partial row sums starts at zero. -/
theorem pay1_apply (p : Fin 1024) : k0_pay1 (F := Ideal) (ix2 p 0) = 0 := by
  unfold k0_pay1
  rw [shapeCast_self]
  exact Ideal.ofBits_zero_f32

/-- The scaled similarity: the product of `v3` with the TRANSPOSE of `v5`, accumulated from zero, times two.
    Entry `(p, q)` is the inner product of row `p` of `v3` with row `q` of `v5`, doubled. -/
theorem pay2_apply (v3 v5 : Vec Ideal S1024x1024 .bf16) (p q : Fin 1024) :
    k0_pay2 (F := Ideal) v3 v5 (ix2 p q) = (∑ d : Fin 1024, v3 (ix2 p d) * v5 (ix2 q d)) * Cert.Spec.two := by
  unfold k0_pay2
  rw [shapeCast_self, shapeCast_self, mulf_apply]
  refine congrArg (· * Cert.Spec.two) ?_
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]
  exact congrArg (v3 (ix2 p k) * ·) (transpose_ix2_apply v5 transposes_S1024x1024_p1_0_S1024x1024 k q)

/-- The shifted exponential of the scaled similarity. -/
theorem pay3_apply (v3 v5 : Vec Ideal S1024x1024 .bf16) (p q : Fin 1024) :
    k0_pay3 (F := Ideal) v3 v5 (ix2 p q) = Ideal.exp (k0_pay2 (F := Ideal) v3 v5 (ix2 p q) - Cert.Spec.three) := rfl

/-- The running column plus this block's row sums of the shifted exponentials. -/
theorem pay4_apply (v3 v5 : Vec Ideal S1024x1024 .bf16) (v14 : Vec Ideal S1024x1 .f32) (p : Fin 1024) :
    k0_pay4 (F := Ideal) v3 v5 v14 (ix2 p 0)
      = v14 (ix2 p 0) + ∑ q : Fin 1024, k0_pay3 (F := Ideal) v3 v5 (ix2 p q) := by
  unfold k0_pay4
  rw [shapeCast_self, addf_apply]
  refine congrArg (v14 (ix2 p 0) + ·) ?_
  refine (shapeCast_a_a1_apply _ shapeCasts_S1024_S1024x1 p 0).trans ?_
  refine (Ideal.multiReduction_add_single (k0_pay3 (F := Ideal) v3 v5) _ reduces_S1024x1024_S1024 (.inl rfl) rfl
    (ix1 p)).trans ?_
  refine Finset.sum_congr rfl fun q _ => congrArg _ ?_
  funext a; match a with | ⟨0, _⟩ => rfl | ⟨1, _⟩ => rfl

/-- This block's column sums of the shifted exponentials, laid out as a `[1, 1, 1024]` row. -/
theorem pay5_apply (v3 v5 : Vec Ideal S1024x1024 .bf16) (q : Fin 1024) :
    k0_pay5 (F := Ideal) v3 v5 (ix3 0 0 q) = ∑ p : Fin 1024, k0_pay3 (F := Ideal) v3 v5 (ix2 p q) := by
  unfold k0_pay5
  refine (shapeCast_ab_1ab_apply _ shapeCasts_S1x1024_S1x1x1024 0 0 q).trans ?_
  refine (shapeCast_a_1a_apply _ shapeCasts_S1024_S1x1024 0 q).trans ?_
  refine (Ideal.multiReduction_add_single (k0_pay3 (F := Ideal) v3 v5) _ reduces_S1024x1024_S1024_2 (.inl rfl) rfl
    (ix1 q)).trans ?_
  refine Finset.sum_congr rfl fun p _ => congrArg _ ?_
  funext a; match a with | ⟨0, _⟩ => rfl | ⟨1, _⟩ => rfl

/-- The diagonal of the scaled similarity: the lane sum over `k` of "`s p k` if `p = k`, else zero" has one
    surviving term, the one at `k = p`. -/
theorem pay6_apply (v3 v5 : Vec Ideal S1024x1024 .bf16) (p : Fin 1024) :
    k0_pay6 (F := Ideal) v3 v5 (ix2 p 0) = k0_pay2 (F := Ideal) v3 v5 (ix2 p p) := by
  unfold k0_pay6
  rw [shapeCast_self]
  refine (shapeCast_a_a1_apply _ shapeCasts_S1024_S1024x1 p 0).trans ?_
  refine (Ideal.multiReduction_add_single _ _ reduces_S1024x1024_S1024 (.inl rfl) rfl (ix1 p)).trans ?_
  have hl : ∀ k : Fin 1024, reduces_S1024x1024_S1024.lift (ix1 p) k = ix2 p k := fun k => by
    funext a; match a with | ⟨0, _⟩ => rfl | ⟨1, _⟩ => rfl
  refine (Finset.sum_congr rfl fun k _ => ?_).trans
    (Finset.sum_ite_eq Finset.univ p fun k => k0_pay2 (F := Ideal) v3 v5 (ix2 p k)) |>.trans
    (if_pos (Finset.mem_univ p))
  rw [hl k]
  show Scalar.select (IntOp.cmpi .eq (iota .tc S1024x1024 32 [0] iota_S1024x1024_d0_w32 (ix2 p k))
      (iota .tc S1024x1024 32 [1] iota_S1024x1024_d1_w32 (ix2 p k))) (k0_pay2 (F := Ideal) v3 v5 (ix2 p k))
      (Ideal.ofBits .f32 0x00000000#32) = _
  rw [iota_single_apply, iota_single_apply]
  exact diag_select p k _

/-- A completed row sum's logarithm, the shift added back. -/
theorem pay7_apply (v31 : Vec Ideal S1024x1 .f32) (p : Fin 1024) :
    k0_pay7 (F := Ideal) v31 (ix2 p 0) = Ideal.log (v31 (ix2 p 0)) + Cert.Spec.three := rfl

end Cert.KernelIdeal.Payloads

end
-- ==== Proof.Values.lean ====
/-
  The quantities the sweep carries from grid point to grid point, read one entry at a time.  Point `n` of the
  64-point grid handles row block `n / 8` and column block `n % 8` of the 8192 × 8192 similarity matrix of the
  two row-normalised arguments.  The tiles' entries are entries of the normalised matrices; a tile's scaled
  similarities and shifted exponentials are the swept form's `simK` and `expK` at the tile's global
  coordinates; the running row sum after point `n` is the sum of the shifted exponentials over the column
  blocks `0 … n % 8` of its row; once the last column block is in, its logarithm with the shift added back is
  the row's log-sum-exp; the recorded diagonal is the similarity of a row with itself; and a tile's column sums
  are partial column sums of the shifted exponentials.
-/
import proofs.«142358_j14362370638446_2_alg».proof.Proof.SweepDefs
import proofs.«142358_j14362370638446_2_alg».proof.Proof.Payloads
import proofs.«142358_j14362370638446_2_alg».proof.Proof.Blocks
import proofs.«142358_j14362370638446_2_alg».proof.Proof.Prefix
import proofs.«142358_j14362370638446_2_alg».proof.Proof.LibBlockSum
import proofs.«142358_j14362370638446_2_alg».proof.Proof.Spec

noncomputable section

open scoped BigOperators

namespace Cert.KernelIdeal.Values

open Cert.KernelIdeal Cert.KernelIdeal.Gen Cert.KernelIdeal.Sweep Idealize.ShloMosaic Idealize.ShloMosaic.ValueIdx

/-! ## Sums over leading blocks of 1024 consecutive positions -/

/-- Entry `k` of a family indexed by `Fin 8192`, zero past the end. -/
def ext0 (f : Fin 8192 → EReal) (k : ℕ) : EReal := if hk : k < 8192 then f ⟨k, hk⟩ else 0

/-- The sum of the first `b` blocks of 1024 consecutive entries of `f`. -/
def blocksUpTo (f : Fin 8192 → EReal) (b : ℕ) : EReal :=
  ∑ j ∈ Finset.range b, ∑ q : Fin 1024, ext0 f (1024 * j + q.val)

theorem blocksUpTo_zero (f : Fin 8192 → EReal) : blocksUpTo f 0 = 0 := Finset.sum_range_zero _

theorem blocksUpTo_succ (f : Fin 8192 → EReal) (b : ℕ) :
    blocksUpTo f (b + 1) = blocksUpTo f b + ∑ q : Fin 1024, ext0 f (1024 * b + q.val) :=
  Finset.sum_range_succ _ _

/-- All eight blocks together are the whole sum. -/
theorem blocksUpTo_eight (f : Fin 8192 → EReal) : blocksUpTo f 8 = ∑ r : Fin 8192, f r := by
  rw [Cert.Math.sum_blocks_8192]
  unfold blocksUpTo
  rw [Finset.sum_range]
  refine Finset.sum_congr rfl fun j _ => Finset.sum_congr rfl fun q _ => ?_
  exact dif_pos _

/-! ## Global coordinates of a tile's rows and columns -/

variable (m : (ℓ : Loc nD τ sig) → Buf (Elt Ideal) ℓ) (c : Dev nD)

/-- The two row-normalised argument matrices. -/
abbrev X : Fin 8192 → Fin 1024 → EReal := Cert.Spec.nrm (Cert.Spec.mat (m ((c.tc : Thread nD τ).loc main_arg0)))
abbrev Y : Fin 8192 → Fin 1024 → EReal := Cert.Spec.nrm (Cert.Spec.mat (m ((c.tc : Thread nD τ).loc main_arg1)))

theorem lt64 {n : ℕ} (h : n < cfg0.N) : n < 64 := lt_of_lt_of_eq h N_0

/-- Row `p` of the tile at point `n` is global row `1024 * (n / 8) + p`. -/
abbrev row (n : ℕ) (hn : n < 64) (p : Fin 1024) : Fin 8192 :=
  ⟨1024 * (n / 8) + p.val, by have := p.isLt; omega⟩
/-- Column `q` of the tile at point `n` is global column `1024 * (n % 8) + q`. -/
abbrev col (n : ℕ) (hn : n < 64) (q : Fin 1024) : Fin 8192 :=
  ⟨1024 * (n % 8) + q.val, by have := q.isLt; omega⟩

theorem ext0_col (f : Fin 8192 → EReal) (n : ℕ) (hn : n < 64) (q : Fin 1024) :
    ext0 f (1024 * (n % 8) + q.val) = f (col n hn q) := dif_pos _

/-- The blocks up to and including column block `n % 8`: the earlier ones plus the tile's own columns. -/
theorem blocksUpTo_mod_succ (f : Fin 8192 → EReal) (n : ℕ) (hn : n < 64) :
    blocksUpTo f (n % 8 + 1) = blocksUpTo f (n % 8) + ∑ q : Fin 1024, f (col n hn q) := by
  rw [blocksUpTo_succ]
  exact congrArg (blocksUpTo f (n % 8) + ·) (Finset.sum_congr rfl fun q _ => ext0_col f n hn q)

/-! ## The tiles -/

theorem tileX_apply (n : ℕ) (h : n < cfg0.N) (p d : Fin 1024) :
    tileX m c n h (ix2 p d) = X m c (row n (lt64 h) p) d :=
  (Blocks.iblk0_apply m c ⟨n, h⟩ p d).trans (Prefix.V_v16_apply m c _ d)

theorem tileY_apply (n : ℕ) (h : n < cfg0.N) (q d : Fin 1024) :
    tileY m c n h (ix2 q d) = Y m c (col n (lt64 h) q) d :=
  (Blocks.iblk1_apply m c ⟨n, h⟩ q d).trans (Prefix.V_v17_apply m c _ d)

/-- A tile's scaled similarity at `(p, q)` is the swept similarity of its global row and column. -/
theorem pay2_tile (n : ℕ) (h : n < cfg0.N) (p q : Fin 1024) :
    k0_pay2 (F := Ideal) (tileX m c n h) (tileY m c n h) (ix2 p q)
      = Cert.Spec.simK (X m c) (Y m c) (row n (lt64 h) p) (col n (lt64 h) q) := by
  refine (Payloads.pay2_apply (tileX m c n h) (tileY m c n h) p q).trans ?_
  unfold Cert.Spec.simK Cert.Spec.dot
  refine congrArg (· * Cert.Spec.two) (Finset.sum_congr rfl fun d _ => ?_)
  exact congrArg₂ (· * ·) (tileX_apply m c n h p d) (tileY_apply m c n h q d)

/-- A tile's shifted exponential at `(p, q)`. -/
theorem pay3_tile (n : ℕ) (h : n < cfg0.N) (p q : Fin 1024) :
    k0_pay3 (F := Ideal) (tileX m c n h) (tileY m c n h) (ix2 p q)
      = Cert.Spec.expK (X m c) (Y m c) (row n (lt64 h) p) (col n (lt64 h) q) := by
  refine (Payloads.pay3_apply (tileX m c n h) (tileY m c n h) p q).trans ?_
  unfold Cert.Spec.expK
  exact congrArg (fun s => Ideal.exp (s - Cert.Spec.three)) (pay2_tile m c n h p q)

/-- A running column increased by a tile's row sums of the shifted exponentials. -/
theorem pay4_tile (n : ℕ) (h : n < cfg0.N) (v : Vec Ideal S1024x1 .f32) (p : Fin 1024) :
    k0_pay4 (F := Ideal) (tileX m c n h) (tileY m c n h) v (ix2 p 0)
      = v (ix2 p 0) + ∑ q : Fin 1024, Cert.Spec.expK (X m c) (Y m c) (row n (lt64 h) p) (col n (lt64 h) q) := by
  refine (Payloads.pay4_apply (tileX m c n h) (tileY m c n h) v p).trans ?_
  exact congrArg (v (ix2 p 0) + ·) (Finset.sum_congr rfl fun q _ => pay3_tile m c n h p q)

/-- A tile's column sums of the shifted exponentials. -/
theorem colPart_apply (n : ℕ) (h : n < cfg0.N) (q : Fin 1024) :
    k0_pay5 (F := Ideal) (tileX m c n h) (tileY m c n h) (ix3 0 0 q)
      = ∑ p : Fin 1024, Cert.Spec.expK (X m c) (Y m c) (row n (lt64 h) p) (col n (lt64 h) q) := by
  refine (Payloads.pay5_apply (tileX m c n h) (tileY m c n h) q).trans ?_
  exact Finset.sum_congr rfl fun p _ => pay3_tile m c n h p q

/-! ## The running row sum -/

/-- After point `n` the running row sum of tile row `p` is the sum of the shifted exponentials of its global
    row over the column blocks `0 … n % 8`: restarted on a first column block, increased by one block at
    every later point of the same row block. -/
theorem acc_apply : ∀ (n : ℕ) (h : n < cfg0.N) (p : Fin 1024),
    acc m c n h (ix2 p 0)
      = blocksUpTo (Cert.Spec.expK (X m c) (Y m c) (row n (lt64 h) p)) (n % 8 + 1) := by
  intro n
  induction n with
  | zero =>
    intro h p
    refine (congrFun (acc_zero m c h) (ix2 p 0)).trans ?_
    refine (pay4_tile m c 0 h _ p).trans ?_
    have hz : ∀ f, blocksUpTo f (0 % 8) = 0 := fun f => blocksUpTo_zero f
    rw [Payloads.pay1_apply p, zero_add, blocksUpTo_mod_succ _ 0 (lt64 h), hz, zero_add]
  | succ n ih =>
    intro h p
    have hn : n + 1 < 64 := lt64 h
    by_cases h0 : (n + 1) % 8 = 0
    · refine (congrFun (acc_reset m c n h h0) (ix2 p 0)).trans ?_
      refine (pay4_tile m c (n + 1) h _ p).trans ?_
      have hz : ∀ f, blocksUpTo f ((n + 1) % 8) = 0 := fun f => by rw [h0]; exact blocksUpTo_zero f
      rw [Payloads.pay1_apply p, zero_add, blocksUpTo_mod_succ _ (n + 1) hn, hz, zero_add]
    · refine (congrFun (acc_step m c n h h0) (ix2 p 0)).trans ?_
      refine (pay4_tile m c (n + 1) h _ p).trans ?_
      rw [blocksUpTo_mod_succ _ (n + 1) hn]
      refine congrArg₂ (· + ·) ?_ rfl
      have hr : row (n + 1) hn p = row n (lt64 (Nat.lt_of_succ_lt h)) p :=
        Fin.ext (by show 1024 * ((n + 1) / 8) + p.val = 1024 * (n / 8) + p.val; omega)
      have hm : (n + 1) % 8 = n % 8 + 1 := by omega
      rw [ih (Nat.lt_of_succ_lt h) p, hr, hm]

/-- On a last column block the row sum is complete, and its logarithm with the shift added back is the row's
    log-sum-exp. -/
theorem rowLse_apply (n : ℕ) (h : n < cfg0.N) (h7 : n % 8 = 7) (p : Fin 1024) :
    k0_pay7 (F := Ideal) (acc m c n h) (ix2 p 0)
      = Cert.Spec.rowLseK (X m c) (Y m c) (row n (lt64 h) p) := by
  refine (Payloads.pay7_apply (acc m c n h) p).trans ?_
  unfold Cert.Spec.rowLseK
  have h8 : n % 8 + 1 = 8 := by omega
  rw [acc_apply m c n h p, h8, blocksUpTo_eight]

/-! ## The recorded diagonal -/

/-- From the diagonal tile of a row block onwards, the recorded diagonal of tile row `p` is the similarity of
    its global row with itself: taken on the diagonal tile (row block = column block, where tile column `p`
    is global row `p`'s own index) and kept until the row block ends. -/
theorem dg_apply : ∀ (n : ℕ) (h : n < cfg0.N) (hd : n / 8 ≤ n % 8) (p : Fin 1024),
    dg m c n h (ix2 p 0)
      = Cert.Spec.simK (X m c) (Y m c) (row n (lt64 h) p) (row n (lt64 h) p) := by
  intro n
  induction n with
  | zero =>
    intro h hd p
    refine (congrFun (dg_zero m c h) (ix2 p 0)).trans ?_
    refine (Payloads.pay6_apply (tileX m c 0 h) (tileY m c 0 h) p).trans ?_
    refine (pay2_tile m c 0 h p p).trans ?_
    exact congrArg (Cert.Spec.simK (X m c) (Y m c) (row 0 (lt64 h) p))
      (Fin.ext (by show 1024 * (0 % 8) + p.val = 1024 * (0 / 8) + p.val; omega))
  | succ n ih =>
    intro h hd p
    have hn : n + 1 < 64 := lt64 h
    by_cases h1 : (n + 1) % 9 = 0
    · refine (congrFun (dg_take m c n h h1) (ix2 p 0)).trans ?_
      refine (Payloads.pay6_apply (tileX m c (n + 1) h) (tileY m c (n + 1) h) p).trans ?_
      refine (pay2_tile m c (n + 1) h p p).trans ?_
      exact congrArg (Cert.Spec.simK (X m c) (Y m c) (row (n + 1) hn p))
        (Fin.ext (by show 1024 * ((n + 1) % 8) + p.val = 1024 * ((n + 1) / 8) + p.val; omega))
    · refine (congrFun (dg_keep m c n h h1) (ix2 p 0)).trans ?_
      have hd' : n / 8 ≤ n % 8 := by omega
      have hr : row (n + 1) hn p = row n (lt64 (Nat.lt_of_succ_lt h)) p :=
        Fin.ext (by show 1024 * ((n + 1) / 8) + p.val = 1024 * (n / 8) + p.val; omega)
      rw [hr]
      exact ih (Nat.lt_of_succ_lt h) hd' p

end Cert.KernelIdeal.Values
end
-- ==== Proof.KernelValue.lean ====
/-
  The tiled sweep's run read as a value: the three arrays it leaves are the row log-sum-exps, the diagonal of the
  similarity matrix and the per-row-block partial column sums of the shifted exponentials of the two row-normalised
  arguments, and the host lines after it assemble from them the swept form of the symmetric contrastive loss.
-/
import proofs.«142358_j14362370638446_2_alg».proof.Proof.Gen.KernelIdeal.Frame
import proofs.«142358_j14362370638446_2_alg».proof.Proof.Spec
import proofs.«142358_j14362370638446_2_alg».proof.Proof.SweepDefs
import proofs.«142358_j14362370638446_2_alg».proof.Proof.Blocks
import Idealize.ShloMosaic.Lib.Pipeline.Value
import Idealize.ShloMosaic.Lib.ValueIdx
import proofs.«142358_j14362370638446_2_alg».proof.Proof.Sweep
import proofs.«142358_j14362370638446_2_alg».proof.Proof.Tail
import proofs.«142358_j14362370638446_2_alg».proof.Proof.Values

noncomputable section

open scoped BigOperators
open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Sweep Cert.KernelIdeal.Blocks Idealize.ShloMosaic.ValueIdx

/-! ## The three arrays the sweep leaves

Stated for any two matrices `X`, `Y` for which the carried quantities read as the swept form's terms: the finished
row sum's logarithm term, the recorded diagonal, and the tile's column sums. -/

section Arrays

variable (m : (ℓ : Loc nD τ sig) → Buf (Elt Ideal) ℓ) (c : Dev nD)
variable (X Y : Fin 8192 → Fin 1024 → EReal)

/-- The row log-sum-exp array: row `r` holds the row log-sum-exp of row `r`. -/
theorem arr2_eq
    (hout : ∀ (n : ℕ) (h : n < cfg0.N), n % 8 = 7 → (outsAt0 m c n h).1 = k0_pay7 (acc m c n h))
    (hrow : ∀ (n : ℕ) (h : n < cfg0.N), n % 8 = 7 → ∀ p : Fin 1024,
      k0_pay7 (F := Ideal) (acc m c n h) (ix2 p 0)
        = Cert.Spec.rowLseK X Y ⟨1024 * (n / 8) + p.val, by have : cfg0.N = 64 := N_0; have := p.isLt; omega⟩) :
    ((dats m 0 c).arrAt 2 cfg0.N : S8192x1.Idx → EReal) = fun y => Cert.Spec.rowLseK X Y (y 0) :=
  final2 m c (fun y => Cert.Spec.rowLseK X Y (y 0)) fun t h7 p => by
    have e : ((dats m 0 c).after 2 t : S1024x1.Idx → EReal) = k0_pay7 (F := Ideal) (acc m c t.val t.isLt) :=
      (after0_2 m c t).trans (hout t.val t.isLt h7)
    exact (congrFun e (ix2 p 0)).trans (hrow t.val t.isLt h7 p)

/-- The diagonal array: row `r` holds the similarity of row `r` with itself. -/
theorem arr3_eq
    (hout : ∀ (n : ℕ) (h : n < cfg0.N), n % 8 = 7 → (outsAt0 m c n h).2.1 = dg m c n h)
    (hdg : ∀ (n : ℕ) (h : n < cfg0.N), n / 8 ≤ n % 8 → ∀ p : Fin 1024,
      dg (F := Ideal) m c n h (ix2 p 0)
        = Cert.Spec.simK X Y ⟨1024 * (n / 8) + p.val, by have : cfg0.N = 64 := N_0; have := p.isLt; omega⟩
            ⟨1024 * (n / 8) + p.val, by have : cfg0.N = 64 := N_0; have := p.isLt; omega⟩) :
    ((dats m 0 c).arrAt 3 cfg0.N : S8192x1.Idx → EReal) = fun y => Cert.Spec.simK X Y (y 0) (y 0) :=
  final3 m c (fun y => Cert.Spec.simK X Y (y 0) (y 0)) fun t h7 p => by
    have hN : cfg0.N = 64 := N_0
    have ht := t.isLt
    have e : ((dats m 0 c).after 3 t : S1024x1.Idx → EReal) = dg (F := Ideal) m c t.val t.isLt :=
      (after0_3 m c t).trans (hout t.val t.isLt h7)
    exact (congrFun e (ix2 p 0)).trans (hdg t.val t.isLt (by omega) p)

/-- The partial column sums: entry `(i, 0, k)` holds the sum over the 1024 rows of row block `i` of the shifted
    exponentials in column `k`. -/
theorem arr4_eq
    (hout : ∀ (n : ℕ) (h : n < cfg0.N), (outsAt0 m c n h).2.2.1 = k0_pay5 (tileX m c n h) (tileY m c n h))
    (hcol : ∀ (n : ℕ) (h : n < cfg0.N) (q : Fin 1024),
      k0_pay5 (F := Ideal) (tileX m c n h) (tileY m c n h) (ix3 0 0 q)
        = ∑ p : Fin 1024, Cert.Spec.expK X Y
            ⟨1024 * (n / 8) + p.val, by have : cfg0.N = 64 := N_0; have := p.isLt; omega⟩
            ⟨1024 * (n % 8) + q.val, by have := q.isLt; omega⟩) :
    ((dats m 0 c).arrAt 4 cfg0.N : S8x1x8192.Idx → EReal)
      = fun y => ∑ p : Fin 1024, Cert.Spec.expK X Y
          ⟨1024 * (y 0).val + p.val, by have h0 : (y 0).val < 8 := (y 0).isLt; have := p.isLt; omega⟩ (y 2) :=
  final4 m c (fun y => ∑ p : Fin 1024, Cert.Spec.expK X Y
      ⟨1024 * (y 0).val + p.val, by have h0 : (y 0).val < 8 := (y 0).isLt; have := p.isLt; omega⟩ (y 2)) fun t q => by
    have e : ((dats m 0 c).after 4 t : S1x1x1024.Idx → EReal) = k0_pay5 (F := Ideal) (tileX m c t.val t.isLt) (tileY m c t.val t.isLt) :=
      (after0_4 m c t).trans (hout t.val t.isLt)
    exact (congrFun e (ix3 0 0 q)).trans (hcol t.val t.isLt q)

end Arrays

/-! ## The result buffer and the run -/

section Run

variable (m : (ℓ : Loc nD τ sig) → Buf (Elt Ideal) ℓ) (ρ : Dev nD → PrngReg)

/-- The result buffer after the host lines: the swept loss of any two matrices for which the carried quantities
    read as the swept form's terms. The three arrays are those above; the host lines assemble the loss from them. -/
theorem main_v0_of (c : Dev nD) (X Y : Fin 8192 → Fin 1024 → EReal)
    (hrow : ∀ (n : ℕ) (h : n < cfg0.N), n % 8 = 7 → ∀ p : Fin 1024,
      k0_pay7 (F := Ideal) (acc m c n h) (ix2 p 0)
        = Cert.Spec.rowLseK X Y ⟨1024 * (n / 8) + p.val, by have : cfg0.N = 64 := N_0; have := p.isLt; omega⟩)
    (hdg : ∀ (n : ℕ) (h : n < cfg0.N), n / 8 ≤ n % 8 → ∀ p : Fin 1024,
      dg (F := Ideal) m c n h (ix2 p 0)
        = Cert.Spec.simK X Y ⟨1024 * (n / 8) + p.val, by have : cfg0.N = 64 := N_0; have := p.isLt; omega⟩
            ⟨1024 * (n / 8) + p.val, by have : cfg0.N = 64 := N_0; have := p.isLt; omega⟩)
    (hcol : ∀ (n : ℕ) (h : n < cfg0.N) (q : Fin 1024),
      k0_pay5 (F := Ideal) (tileX m c n h) (tileY m c n h) (ix3 0 0 q)
        = ∑ p : Fin 1024, Cert.Spec.expK X Y
            ⟨1024 * (n / 8) + p.val, by have : cfg0.N = 64 := N_0; have := p.isLt; omega⟩
            ⟨1024 * (n % 8) + q.val, by have := q.isLt; omega⟩) :
    Pipeline.afterTail₀ cfgs (dats m) 0 (V0 m) [hostOps1] c main_v0 = fun _ => Cert.Spec.lossK X Y := by
  have h2 := arr2_eq m c X Y (fun n h h7 => ((inv m c n h).2.2.2 h7).1) hrow
  have h3 := arr3_eq m c X Y (fun n h h7 => ((inv m c n h).2.2.2 h7).2) hdg
  have h4 := arr4_eq m c X Y (fun n h => (inv m c n h).2.2.1) hcol
  rw [Tail.afterTail_main_v0 m c, h2, h3, h4]
  exact Tail.tailTerm_eq X Y _ _ _ (fun r => rfl) (fun r => rfl) (fun i k => rfl)

end Run

/-! ## The run -/

section Final

variable (m : (ℓ : Loc nD τ sig) → Buf (Elt Ideal) ℓ) (ρ : Dev nD → PrngReg)

/-- The result buffer after the host lines is the swept loss of the two row-normalised arguments. -/
theorem main_v0_eq (c : Dev nD) :
    Pipeline.afterTail₀ cfgs (dats m) 0 (V0 m) [hostOps1] c main_v0
      = fun _ => Cert.Spec.lossK (Cert.Spec.nrm (Cert.Spec.mat (m ((c.tc : Thread nD τ).loc main_arg0))))
          (Cert.Spec.nrm (Cert.Spec.mat (m ((c.tc : Thread nD τ).loc main_arg1)))) :=
  main_v0_of m c (Values.X m c) (Values.Y m c)
    (fun n h h7 p => Values.rowLse_apply m c n h h7 p)
    (fun n h hd p => Values.dg_apply m c n h hd p)
    (fun n h q => Values.colPart_apply m c n h q)

/-- Every weakly fair execution of the program on the TensorCores terminates with the result buffer at the swept
    loss of the two row-normalised arguments, and the two arguments as launched. -/
theorem run : θ_run defs (onTc (τ := τ) (main (F := Ideal))) ⟨m, fun _ => 0, ρ⟩ fun r => ∀ c : Dev nD,
      r.2.mem ((c.tc : Thread nD τ).loc main_v0)
        = (fun _ => Cert.Spec.lossK (Cert.Spec.nrm (Cert.Spec.mat (m ((c.tc : Thread nD τ).loc main_arg0))))
            (Cert.Spec.nrm (Cert.Spec.mat (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0 Tail.main_v0_mem_rest).trans (main_v0_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Final

end Cert.KernelIdeal.KernelValue

end
-- ==== Proof.RefRun.lean ====
/-
  The reference program's run, read back as one pure function of its two arguments.

  The reference's @main is a straight line of 105 host operations, and every execution ends with each buffer at the
  fold of the operations' results over the launch contents (`run_seq`). Here that fold is evaluated without ever
  writing the 105 operations' composite out: the list is cut into thirteen consecutive slices, and for each slice a
  lemma says, over an arbitrary entry valuation, what the few buffers still needed later hold on exit, given what
  they held on entry. Every such content is a named stage of the two argument arrays (`val_<buffer>`, each stage
  defined from the earlier stages by name), so a slice's lemma unfolds only that slice's own operations. Composing
  the thirteen lemmas along the cut gives: the result buffer holds the last stage `val_main_v58 x0 x1`, and the two
  arguments are unchanged.
-/
import proofs.«142358_j14362370638446_2_alg».proof.Proof.RefRunP
import proofs.«142358_j14362370638446_2_alg».proof.Proof.RefReadP
import Idealize.ShloMosaic.Lib.StableHlo.Run

noncomputable section

namespace Cert.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The fold over two lines in a row is the fold over the second from the fold over the first. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- Contents moved to a typed reference's own buffer type and back are the contents. -/
theorem ofBuf_toBuf {T : BufTy} (x : TRef sig T) (v : T.Contents (Elt F)) : x.ofBuf (x.toBuf v) = v := by
  obtain ⟨r, h, h1, h2⟩ := x
  subst h
  rfl

/-- A line cut at any position: the fold over the whole is the fold over the tail from the fold over the head. -/
theorem after_split (l : List (HloOp τ sig (Elt F))) (k : Nat) (V : Valuation τ sig (Elt F)) :
    after l V = after (l.drop k) (after (l.take k) V) := by
  rw [← after_concat, List.take_append_drop]

/-! ## The operation list in thirteen consecutive slices

The slices are taken off the front of the list one after the other (`take` / `drop`), so the list is their
concatenation by construction and no operation is written out a second time. A slice ends where few buffers are
still needed: the two normalised matrices; the similarity matrix and the row numbering; each log-softmax; each
coordinate of each diagonal's index pairs, and the pairs; each diagonal's mean; the result. -/

abbrev seg1 : List (HloOp τ sig (Elt F)) := (ops (F := F)).take 10
abbrev rest1 : List (HloOp τ sig (Elt F)) := (ops (F := F)).drop 10
abbrev seg2 : List (HloOp τ sig (Elt F)) := (rest1 (F := F)).take 10
abbrev rest2 : List (HloOp τ sig (Elt F)) := (rest1 (F := F)).drop 10
abbrev seg3 : List (HloOp τ sig (Elt F)) := (rest2 (F := F)).take 5
abbrev rest3 : List (HloOp τ sig (Elt F)) := (rest2 (F := F)).drop 5
abbrev seg4 : List (HloOp τ sig (Elt F)) := (rest3 (F := F)).take 15
abbrev rest4 : List (HloOp τ sig (Elt F)) := (rest3 (F := F)).drop 15
abbrev seg5 : List (HloOp τ sig (Elt F)) := (rest4 (F := F)).take 16
abbrev rest5 : List (HloOp τ sig (Elt F)) := (rest4 (F := F)).drop 16
abbrev seg6 : List (HloOp τ sig (Elt F)) := (rest5 (F := F)).take 7
abbrev rest6 : List (HloOp τ sig (Elt F)) := (rest5 (F := F)).drop 7
abbrev seg7 : List (HloOp τ sig (Elt F)) := (rest6 (F := F)).take 7
abbrev rest7 : List (HloOp τ sig (Elt F)) := (rest6 (F := F)).drop 7
abbrev seg8 : List (HloOp τ sig (Elt F)) := (rest7 (F := F)).take 3
abbrev rest8 : List (HloOp τ sig (Elt F)) := (rest7 (F := F)).drop 3
abbrev seg9 : List (HloOp τ sig (Elt F)) := (rest8 (F := F)).take 6
abbrev rest9 : List (HloOp τ sig (Elt F)) := (rest8 (F := F)).drop 6
abbrev seg10 : List (HloOp τ sig (Elt F)) := (rest9 (F := F)).take 7
abbrev rest10 : List (HloOp τ sig (Elt F)) := (rest9 (F := F)).drop 7
abbrev seg11 : List (HloOp τ sig (Elt F)) := (rest10 (F := F)).take 7
abbrev rest11 : List (HloOp τ sig (Elt F)) := (rest10 (F := F)).drop 7
abbrev seg12 : List (HloOp τ sig (Elt F)) := (rest11 (F := F)).take 3
abbrev rest12 : List (HloOp τ sig (Elt F)) := (rest11 (F := F)).drop 3
abbrev seg13 : List (HloOp τ sig (Elt F)) := rest12 (F := F)

/-- The fold over the whole list is the slices' folds, one after the other. -/
theorem after_ops_split (V : Valuation τ sig (Elt F)) :
    after (ops (F := F)) V
      = after seg13 (after seg12 (after seg11 (after seg10 (after seg9 (after seg8 (after seg7 (after seg6 (after seg5 (after seg4 (after seg3 (after seg2 (after seg1 V)))))))))))) :=
  ((after_split ops 10 V).trans
    ((after_split rest1 10 _).trans
    ((after_split rest2 5 _).trans
    ((after_split rest3 15 _).trans
    ((after_split rest4 16 _).trans
    ((after_split rest5 7 _).trans
    ((after_split rest6 7 _).trans
    ((after_split rest7 3 _).trans
    ((after_split rest8 6 _).trans
    ((after_split rest9 7 _).trans
    ((after_split rest10 7 _).trans
    (after_split rest11 3 _))))))))))))

/-- Writes a slice of the operation list out as the literal list it is. -/
macro "open_slice" : tactic =>
  `(tactic| simp only [seg1, seg2, seg3, seg4, seg5, seg6, seg7, seg8, seg9, seg10, seg11, seg12, seg13, rest1, rest2, rest3, rest4, rest5, rest6, rest7, rest8, rest9, rest10, rest11, rest12, ops, List.drop_succ_cons, List.drop_zero, List.take_succ_cons, List.take_zero])

/-! ## The slices, one at a time

Each lemma is over an arbitrary entry valuation `W` and the two argument arrays `x0`, `x1`: given what the live
buffers hold on entry — each a named stage of the two arguments — it says what the buffers still needed later hold
on exit. A buffer the slice does not write keeps its contents; a buffer it computes holds the next stage, which
unfolds to this slice's operations applied to the entry stages. -/

set_option maxRecDepth 4096 in
/-- Slice 1: the first matrix's rows divided by their floored norms. -/
theorem s1 (W : Valuation τ sig (Elt F)) (x0 x1 : (⟨S8192x1024, .f32⟩ : BufTy).Contents (Elt F))
    (h_arg0 : W (Proc.devRef .tc main_arg0) = x0)
    (h_arg1 : W (Proc.devRef .tc main_arg1) = x1) :
    after seg1 W (Proc.devRef .tc main_arg0) = x0
      ∧ after seg1 W (Proc.devRef .tc main_arg1) = x1
      ∧ after seg1 W (Proc.devRef .tc main_v7) = val_main_v7 (F := F) x0 := by
  open_slice
  refine ⟨?_, ?_, ?_⟩
  · after_results
    exact h_arg0
  · after_results
    exact h_arg1
  · after_results
    rw [h_arg0]
    rfl

set_option maxRecDepth 4096 in
/-- Slice 2: the second matrix's rows divided by their floored norms. -/
theorem s2 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v7 : W (Proc.devRef .tc main_v7) = val_main_v7 (F := F) x0) :
    after seg2 W (Proc.devRef .tc main_arg0) = x0
      ∧ after seg2 W (Proc.devRef .tc main_arg1) = x1
      ∧ after seg2 W (Proc.devRef .tc main_v7) = val_main_v7 (F := F) x0
      ∧ after seg2 W (Proc.devRef .tc main_v15) = val_main_v15 (F := F) x1 := by
  open_slice
  refine ⟨?_, ?_, ?_, ?_⟩
  · after_results
    exact h_arg0
  · after_results
    exact h_arg1
  · after_results
    exact h_v7
  · after_results
    rw [h_arg1]
    rfl

set_option maxRecDepth 4096 in
/-- Slice 3: the similarity matrix (the inner products over one half) and the row numbering. -/
theorem s3 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v7 : W (Proc.devRef .tc main_v7) = val_main_v7 (F := F) x0)
    (h_v15 : W (Proc.devRef .tc main_v15) = val_main_v15 (F := F) x1) :
    after seg3 W (Proc.devRef .tc main_arg0) = x0
      ∧ after seg3 W (Proc.devRef .tc main_arg1) = x1
      ∧ after seg3 W (Proc.devRef .tc main_v18) = val_main_v18 (F := F) x0 x1
      ∧ after seg3 W (Proc.devRef .tc main_v19) = val_main_v19 (F := F) := by
  open_slice
  refine ⟨?_, ?_, ?_, ?_⟩
  · after_results
    exact h_arg0
  · after_results
    exact h_arg1
  · after_results
    rw [h_v7, h_v15]
    rfl
  · after_results
    rfl

set_option maxRecDepth 4096 in
/-- Slice 4: the row-wise log-softmax of the similarity matrix. -/
theorem s4 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v18 : W (Proc.devRef .tc main_v18) = val_main_v18 (F := F) x0 x1)
    (h_v19 : W (Proc.devRef .tc main_v19) = val_main_v19 (F := F)) :
    after seg4 W (Proc.devRef .tc main_arg0) = x0
      ∧ after seg4 W (Proc.devRef .tc main_arg1) = x1
      ∧ after seg4 W (Proc.devRef .tc main_v18) = val_main_v18 (F := F) x0 x1
      ∧ after seg4 W (Proc.devRef .tc main_v19) = val_main_v19 (F := F)
      ∧ after seg4 W (Proc.devRef .tc main_v20) = val_main_v20 (F := F) x0 x1 := by
  open_slice
  refine ⟨?_, ?_, ?_, ?_, ?_⟩
  · after_results
    exact h_arg0
  · after_results
    exact h_arg1
  · after_results
    exact h_v18
  · after_results
    exact h_v19
  · after_results
    rw [h_v18]
    simp only [ofBuf_toBuf]
    unfold val_main_v20 val_main_call0_v10 val_main_call0_v9 val_main_call0_v8 val_main_call0_v7 val_main_call0_cst_1 val_main_call0_v6 val_main_call0_v5 val_main_call0_v4 val_main_call0_v3 val_main_call0_v2 val_main_call0_v1 val_main_call0_cst_0 val_main_call0_v0 val_main_call0_cst
    generalize val_main_v18 (F := F) x0 x1 = y
    rfl

set_option maxRecDepth 4096 in
/-- Slice 5: the row-wise log-softmax of the transposed similarity matrix. -/
theorem s5 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v18 : W (Proc.devRef .tc main_v18) = val_main_v18 (F := F) x0 x1)
    (h_v19 : W (Proc.devRef .tc main_v19) = val_main_v19 (F := F))
    (h_v20 : W (Proc.devRef .tc main_v20) = val_main_v20 (F := F) x0 x1) :
    after seg5 W (Proc.devRef .tc main_arg0) = x0
      ∧ after seg5 W (Proc.devRef .tc main_arg1) = x1
      ∧ after seg5 W (Proc.devRef .tc main_v19) = val_main_v19 (F := F)
      ∧ after seg5 W (Proc.devRef .tc main_v20) = val_main_v20 (F := F) x0 x1
      ∧ after seg5 W (Proc.devRef .tc main_v22) = val_main_v22 (F := F) x0 x1 := by
  open_slice
  refine ⟨?_, ?_, ?_, ?_, ?_⟩
  · after_results
    exact h_arg0
  · after_results
    exact h_arg1
  · after_results
    exact h_v19
  · after_results
    exact h_v20
  · after_results
    rw [h_v18]
    simp only [ofBuf_toBuf]
    unfold val_main_v22 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst val_main_v21
    generalize val_main_v18 (F := F) x0 x1 = y
    rfl

set_option maxRecDepth 4096 in
/-- Slice 6: the row numbering wrapped into range (a negative entry gets the row count added): the first coordinate of the first diagonal. -/
theorem s6 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v19 : W (Proc.devRef .tc main_v19) = val_main_v19 (F := F))
    (h_v20 : W (Proc.devRef .tc main_v20) = val_main_v20 (F := F) x0 x1)
    (h_v22 : W (Proc.devRef .tc main_v22) = val_main_v22 (F := F) x0 x1) :
    after seg6 W (Proc.devRef .tc main_arg0) = x0
      ∧ after seg6 W (Proc.devRef .tc main_arg1) = x1
      ∧ after seg6 W (Proc.devRef .tc main_v19) = val_main_v19 (F := F)
      ∧ after seg6 W (Proc.devRef .tc main_v20) = val_main_v20 (F := F) x0 x1
      ∧ after seg6 W (Proc.devRef .tc main_v22) = val_main_v22 (F := F) x0 x1
      ∧ after seg6 W (Proc.devRef .tc main_v27) = val_main_v27 (F := F) := by
  open_slice
  refine ⟨?_, ?_, ?_, ?_, ?_, ?_⟩
  · after_results
    exact h_arg0
  · after_results
    exact h_arg1
  · after_results
    exact h_v19
  · after_results
    exact h_v20
  · after_results
    exact h_v22
  · after_results
    rw [h_v19]
    rfl

set_option maxRecDepth 4096 in
/-- Slice 7: the same wrapped numbering again: the second coordinate of the first diagonal. -/
theorem s7 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v19 : W (Proc.devRef .tc main_v19) = val_main_v19 (F := F))
    (h_v20 : W (Proc.devRef .tc main_v20) = val_main_v20 (F := F) x0 x1)
    (h_v22 : W (Proc.devRef .tc main_v22) = val_main_v22 (F := F) x0 x1)
    (h_v27 : W (Proc.devRef .tc main_v27) = val_main_v27 (F := F)) :
    after seg7 W (Proc.devRef .tc main_arg0) = x0
      ∧ after seg7 W (Proc.devRef .tc main_arg1) = x1
      ∧ after seg7 W (Proc.devRef .tc main_v19) = val_main_v19 (F := F)
      ∧ after seg7 W (Proc.devRef .tc main_v20) = val_main_v20 (F := F) x0 x1
      ∧ after seg7 W (Proc.devRef .tc main_v22) = val_main_v22 (F := F) x0 x1
      ∧ after seg7 W (Proc.devRef .tc main_v27) = val_main_v27 (F := F)
      ∧ after seg7 W (Proc.devRef .tc main_v32) = val_main_v32 (F := F) := by
  open_slice
  refine ⟨?_, ?_, ?_, ?_, ?_, ?_, ?_⟩
  · after_results
    exact h_arg0
  · after_results
    exact h_arg1
  · after_results
    exact h_v19
  · after_results
    exact h_v20
  · after_results
    exact h_v22
  · after_results
    exact h_v27
  · after_results
    rw [h_v19]
    rfl

set_option maxRecDepth 4096 in
/-- Slice 8: the two coordinates side by side: the index pairs (i, i) of the first diagonal. -/
theorem s8 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v19 : W (Proc.devRef .tc main_v19) = val_main_v19 (F := F))
    (h_v20 : W (Proc.devRef .tc main_v20) = val_main_v20 (F := F) x0 x1)
    (h_v22 : W (Proc.devRef .tc main_v22) = val_main_v22 (F := F) x0 x1)
    (h_v27 : W (Proc.devRef .tc main_v27) = val_main_v27 (F := F))
    (h_v32 : W (Proc.devRef .tc main_v32) = val_main_v32 (F := F)) :
    after seg8 W (Proc.devRef .tc main_arg0) = x0
      ∧ after seg8 W (Proc.devRef .tc main_arg1) = x1
      ∧ after seg8 W (Proc.devRef .tc main_v19) = val_main_v19 (F := F)
      ∧ after seg8 W (Proc.devRef .tc main_v20) = val_main_v20 (F := F) x0 x1
      ∧ after seg8 W (Proc.devRef .tc main_v22) = val_main_v22 (F := F) x0 x1
      ∧ after seg8 W (Proc.devRef .tc main_v35) = val_main_v35 (F := F) := by
  open_slice
  refine ⟨?_, ?_, ?_, ?_, ?_, ?_⟩
  · after_results
    exact h_arg0
  · after_results
    exact h_arg1
  · after_results
    exact h_v19
  · after_results
    exact h_v20
  · after_results
    exact h_v22
  · after_results
    rw [h_v27, h_v32]
    rfl

set_option maxRecDepth 4096 in
/-- Slice 9: the first log-softmax gathered along its diagonal, summed, divided by the row count, negated. -/
theorem s9 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v19 : W (Proc.devRef .tc main_v19) = val_main_v19 (F := F))
    (h_v20 : W (Proc.devRef .tc main_v20) = val_main_v20 (F := F) x0 x1)
    (h_v22 : W (Proc.devRef .tc main_v22) = val_main_v22 (F := F) x0 x1)
    (h_v35 : W (Proc.devRef .tc main_v35) = val_main_v35 (F := F)) :
    after seg9 W (Proc.devRef .tc main_arg0) = x0
      ∧ after seg9 W (Proc.devRef .tc main_arg1) = x1
      ∧ after seg9 W (Proc.devRef .tc main_v19) = val_main_v19 (F := F)
      ∧ after seg9 W (Proc.devRef .tc main_v22) = val_main_v22 (F := F) x0 x1
      ∧ after seg9 W (Proc.devRef .tc main_v39) = val_main_v39 (F := F) x0 x1 := by
  open_slice
  refine ⟨?_, ?_, ?_, ?_, ?_⟩
  · after_results
    exact h_arg0
  · after_results
    exact h_arg1
  · after_results
    exact h_v19
  · after_results
    exact h_v22
  · after_results
    rw [h_v20, h_v35]
    rfl

set_option maxRecDepth 4096 in
/-- Slice 10: the wrapped row numbering: the first coordinate of the second diagonal. -/
theorem s10 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v19 : W (Proc.devRef .tc main_v19) = val_main_v19 (F := F))
    (h_v22 : W (Proc.devRef .tc main_v22) = val_main_v22 (F := F) x0 x1)
    (h_v39 : W (Proc.devRef .tc main_v39) = val_main_v39 (F := F) x0 x1) :
    after seg10 W (Proc.devRef .tc main_arg0) = x0
      ∧ after seg10 W (Proc.devRef .tc main_arg1) = x1
      ∧ after seg10 W (Proc.devRef .tc main_v19) = val_main_v19 (F := F)
      ∧ after seg10 W (Proc.devRef .tc main_v22) = val_main_v22 (F := F) x0 x1
      ∧ after seg10 W (Proc.devRef .tc main_v39) = val_main_v39 (F := F) x0 x1
      ∧ after seg10 W (Proc.devRef .tc main_v44) = val_main_v44 (F := F) := by
  open_slice
  refine ⟨?_, ?_, ?_, ?_, ?_, ?_⟩
  · after_results
    exact h_arg0
  · after_results
    exact h_arg1
  · after_results
    exact h_v19
  · after_results
    exact h_v22
  · after_results
    exact h_v39
  · after_results
    rw [h_v19]
    rfl

set_option maxRecDepth 4096 in
/-- Slice 11: the wrapped row numbering: the second coordinate of the second diagonal. -/
theorem s11 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v19 : W (Proc.devRef .tc main_v19) = val_main_v19 (F := F))
    (h_v22 : W (Proc.devRef .tc main_v22) = val_main_v22 (F := F) x0 x1)
    (h_v39 : W (Proc.devRef .tc main_v39) = val_main_v39 (F := F) x0 x1)
    (h_v44 : W (Proc.devRef .tc main_v44) = val_main_v44 (F := F)) :
    after seg11 W (Proc.devRef .tc main_arg0) = x0
      ∧ after seg11 W (Proc.devRef .tc main_arg1) = x1
      ∧ after seg11 W (Proc.devRef .tc main_v22) = val_main_v22 (F := F) x0 x1
      ∧ after seg11 W (Proc.devRef .tc main_v39) = val_main_v39 (F := F) x0 x1
      ∧ after seg11 W (Proc.devRef .tc main_v44) = val_main_v44 (F := F)
      ∧ after seg11 W (Proc.devRef .tc main_v49) = val_main_v49 (F := F) := by
  open_slice
  refine ⟨?_, ?_, ?_, ?_, ?_, ?_⟩
  · after_results
    exact h_arg0
  · after_results
    exact h_arg1
  · after_results
    exact h_v22
  · after_results
    exact h_v39
  · after_results
    exact h_v44
  · after_results
    rw [h_v19]
    rfl

set_option maxRecDepth 4096 in
/-- Slice 12: the two coordinates side by side: the index pairs (i, i) of the second diagonal. -/
theorem s12 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v22 : W (Proc.devRef .tc main_v22) = val_main_v22 (F := F) x0 x1)
    (h_v39 : W (Proc.devRef .tc main_v39) = val_main_v39 (F := F) x0 x1)
    (h_v44 : W (Proc.devRef .tc main_v44) = val_main_v44 (F := F))
    (h_v49 : W (Proc.devRef .tc main_v49) = val_main_v49 (F := F)) :
    after seg12 W (Proc.devRef .tc main_arg0) = x0
      ∧ after seg12 W (Proc.devRef .tc main_arg1) = x1
      ∧ after seg12 W (Proc.devRef .tc main_v22) = val_main_v22 (F := F) x0 x1
      ∧ after seg12 W (Proc.devRef .tc main_v39) = val_main_v39 (F := F) x0 x1
      ∧ after seg12 W (Proc.devRef .tc main_v52) = val_main_v52 (F := F) := by
  open_slice
  refine ⟨?_, ?_, ?_, ?_, ?_⟩
  · after_results
    exact h_arg0
  · after_results
    exact h_arg1
  · after_results
    exact h_v22
  · after_results
    exact h_v39
  · after_results
    rw [h_v44, h_v49]
    rfl

set_option maxRecDepth 4096 in
/-- Slice 13: the second log-softmax's diagonal mean negated likewise, the two added and halved. -/
theorem s13 (W : Valuation τ sig (Elt F)) (x0 x1 : (⟨S8192x1024, .f32⟩ : BufTy).Contents (Elt F))
    (h_arg0 : W (Proc.devRef .tc main_arg0) = x0)
    (h_arg1 : W (Proc.devRef .tc main_arg1) = x1)
    (h_v22 : W (Proc.devRef .tc main_v22) = val_main_v22 (F := F) x0 x1)
    (h_v39 : W (Proc.devRef .tc main_v39) = val_main_v39 (F := F) x0 x1)
    (h_v52 : W (Proc.devRef .tc main_v52) = val_main_v52 (F := F)) :
    after seg13 W (Proc.devRef .tc main_v58) = val_main_v58 (F := F) x0 x1
      ∧ after seg13 W (Proc.devRef .tc main_arg0) = x0
      ∧ after seg13 W (Proc.devRef .tc main_arg1) = x1 := by
  open_slice
  refine ⟨?_, ?_, ?_⟩
  · after_results
    rw [h_v22, h_v52, h_v39]
    rfl
  · after_results
    exact h_arg0
  · after_results
    exact h_arg1

/-! ## The whole list -/

/-- After all 105 operations the result buffer holds the last stage of the two arguments, and the arguments are
    unchanged. -/
theorem after_ops_spec (V : Valuation τ sig (Elt F)) (x0 x1 : (⟨S8192x1024, .f32⟩ : BufTy).Contents (Elt F))
    (ha : V (Proc.devRef .tc main_arg0) = x0) (hb : V (Proc.devRef .tc main_arg1) = x1) :
    after (ops (F := F)) V (Proc.devRef .tc main_v58) = val_main_v58 (F := F) x0 x1
      ∧ after (ops (F := F)) V (Proc.devRef .tc main_arg0) = x0
      ∧ after (ops (F := F)) V (Proc.devRef .tc main_arg1) = x1 := by
  rw [after_ops_split V]
  obtain ⟨karg0_1, karg1_1, kv7_1⟩ := s1 V x0 x1 ha hb
  obtain ⟨karg0_2, karg1_2, kv7_2, kv15_2⟩ := s2 _ x0 x1 karg0_1 karg1_1 kv7_1
  obtain ⟨karg0_3, karg1_3, kv18_3, kv19_3⟩ := s3 _ x0 x1 karg0_2 karg1_2 kv7_2 kv15_2
  obtain ⟨karg0_4, karg1_4, kv18_4, kv19_4, kv20_4⟩ := s4 _ x0 x1 karg0_3 karg1_3 kv18_3 kv19_3
  obtain ⟨karg0_5, karg1_5, kv19_5, kv20_5, kv22_5⟩ := s5 _ x0 x1 karg0_4 karg1_4 kv18_4 kv19_4 kv20_4
  obtain ⟨karg0_6, karg1_6, kv19_6, kv20_6, kv22_6, kv27_6⟩ := s6 _ x0 x1 karg0_5 karg1_5 kv19_5 kv20_5 kv22_5
  obtain ⟨karg0_7, karg1_7, kv19_7, kv20_7, kv22_7, kv27_7, kv32_7⟩ := s7 _ x0 x1 karg0_6 karg1_6 kv19_6 kv20_6 kv22_6 kv27_6
  obtain ⟨karg0_8, karg1_8, kv19_8, kv20_8, kv22_8, kv35_8⟩ := s8 _ x0 x1 karg0_7 karg1_7 kv19_7 kv20_7 kv22_7 kv27_7 kv32_7
  obtain ⟨karg0_9, karg1_9, kv19_9, kv22_9, kv39_9⟩ := s9 _ x0 x1 karg0_8 karg1_8 kv19_8 kv20_8 kv22_8 kv35_8
  obtain ⟨karg0_10, karg1_10, kv19_10, kv22_10, kv39_10, kv44_10⟩ := s10 _ x0 x1 karg0_9 karg1_9 kv19_9 kv22_9 kv39_9
  obtain ⟨karg0_11, karg1_11, kv22_11, kv39_11, kv44_11, kv49_11⟩ := s11 _ x0 x1 karg0_10 karg1_10 kv19_10 kv22_10 kv39_10 kv44_10
  obtain ⟨karg0_12, karg1_12, kv22_12, kv39_12, kv52_12⟩ := s12 _ x0 x1 karg0_11 karg1_11 kv22_11 kv39_11 kv44_11 kv49_11
  exact s13 _ x0 x1 karg0_12 karg1_12 kv22_12 kv39_12 kv52_12

/-! ## The run -/

/-- On every device, for any float values, from any memory with zero counters: every weakly fair execution of
    @main terminates with the result buffer at the last stage of the two argument arrays and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = val_main_v58 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have H := after_ops_spec (F := F) (launchContents m c) _ _ rfl rfl
      ⟨(h c main_v58).trans H.1, (h c main_arg0).trans H.2.1, (h c main_arg1).trans H.2.2⟩)
    (run_seq scopedRefs_eq scopedSems_eq defs main (fun _ => ops) main_eq (fun _ => ops_sub) m ρ)

end Cert.RefRun

end
-- ==== Proof.RefValue.lean ====
/-
  The reference program's result as a function of its two argument matrices.

  The program normalises the rows of both arguments, forms the matrix of their inner products divided by
  one half, takes the row-wise log-softmax of that matrix and of its transpose, reads the two diagonals,
  averages each, negates, adds and halves.  Stage by stage, each intermediate array read at an index is
  the corresponding expression of the specification: the normalised rows, the similarity, the log-softmax
  (a row maximum folded from `-∞`, the shifted exponentials summed, the logarithm subtracted), the
  diagonal entries (the start-index table holds `(r, r)` in row `r`, since a row number below 8192 is
  not negative as a signed 32-bit word), the two means and the final combination.
-/
import proofs.«142358_j14362370638446_2_alg».proof.Proof.RefReadP
import proofs.«142358_j14362370638446_2_alg».proof.Proof.Spec

noncomputable section

open scoped BigOperators

namespace Cert.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The raw argument matrices: 8192 rows of 1024 features. -/
abbrev Arg : Type := (⟨S8192x1024, .f32⟩ : BufTy).Contents (Elt Ideal)

/-! ## The normalised operands -/

theorem v7_apply (x0 : Arg) (i : Fin 8192) (d : Fin 1024) :
    val_main_v7 (F := Ideal) x0 (ix2 i d) = Cert.Spec.nrm (Cert.Spec.mat x0) i d := by
  rw [val_main_v7_apply, val_main_v6_apply, val_main_v5_apply, val_main_v3_apply, val_main_v2_apply,
    val_main_v1_apply, val_main_v4_apply, val_main_cst_0_apply, val_main_cst_apply]
  simp only [val_main_v0_apply, Ideal.hostDivf_def, Ideal.hostUnary_sqrt_def, Ideal.maximumf_def, Ideal.mulf_def,
    Ideal.ofBits_def, Ideal.ofBits_zero_f32, zero_add]
  have e : ∀ k : Fin 1024, idx_main_v1 (idx_main_v2 (idx_main_v6 (ix2 i d))) k = ix2 i k := fun k =>
    funext fun a => Fin.ext (by match a with | ⟨0, _⟩ => rfl | ⟨1, _⟩ => rfl)
  simp only [e]
  rfl

theorem v15_apply (x1 : Arg) (i : Fin 8192) (d : Fin 1024) :
    val_main_v15 (F := Ideal) x1 (ix2 i d) = Cert.Spec.nrm (Cert.Spec.mat x1) i d := by
  rw [val_main_v15_apply, val_main_v14_apply, val_main_v13_apply, val_main_v11_apply, val_main_v10_apply,
    val_main_v9_apply, val_main_v12_apply, val_main_cst_2_apply, val_main_cst_1_apply]
  simp only [val_main_v8_apply, Ideal.hostDivf_def, Ideal.hostUnary_sqrt_def, Ideal.maximumf_def, Ideal.mulf_def,
    Ideal.ofBits_def, Ideal.ofBits_zero_f32, zero_add]
  have e : ∀ k : Fin 1024, idx_main_v9 (idx_main_v10 (idx_main_v14 (ix2 i d))) k = ix2 i k := fun k =>
    funext fun a => Fin.ext (by match a with | ⟨0, _⟩ => rfl | ⟨1, _⟩ => rfl)
  simp only [e]
  rfl

/-! ## The similarity matrix -/

/-- The similarity of the two normalised arguments. -/
abbrev sim (x0 x1 : Arg) : Fin 8192 → Fin 8192 → EReal :=
  Cert.Spec.simR (Cert.Spec.nrm (Cert.Spec.mat x0)) (Cert.Spec.nrm (Cert.Spec.mat x1))

theorem v18_apply (x0 x1 : Arg) (i j : Fin 8192) :
    val_main_v18 (F := Ideal) x0 x1 (ix2 i j) = sim x0 x1 i j := by
  rw [val_main_v18_apply, val_main_v16_apply, val_main_v17_apply, val_main_cst_3_apply]
  have el : ∀ k : Fin 1024, lidx_main_v16 (ix2 i j) k = ix2 i k := fun k =>
    funext fun a => Fin.ext (by match a with | ⟨0, _⟩ => rfl | ⟨1, _⟩ => rfl)
  have er : ∀ k : Fin 1024, ridx_main_v16 (ix2 i j) k = ix2 j k := fun k =>
    funext fun a => Fin.ext (by match a with | ⟨0, _⟩ => rfl | ⟨1, _⟩ => rfl)
  simp only [el, er, v7_apply, v15_apply, Ideal.hostDivf_def, Ideal.ofBits_def]
  rfl

theorem v21_apply (x0 x1 : Arg) (i j : Fin 8192) :
    val_main_v21 (F := Ideal) x0 x1 (ix2 i j) = sim x0 x1 j i := by
  rw [val_main_v21_apply]
  have e : idx_main_v21 (ix2 i j) = ix2 j i :=
    funext fun a => Fin.ext (by match a with | ⟨0, _⟩ => rfl | ⟨1, _⟩ => rfl)
  rw [e, v18_apply]

/-! ## The row-wise log-softmax, called on the similarity matrix -/

/-- Row `i` of a square matrix, as the reduction over the second axis reads it. -/
theorem lift_row (i k : Fin 8192) :
    Shape.Reduces.lift (by decide : S8192x8192.Reduces [1] S8192) (ix1 i) k = ix2 i k :=
  funext fun a => Fin.ext (by match a with | ⟨0, _⟩ => rfl | ⟨1, _⟩ => rfl)

/-- The host's maximum over the second axis, started from `-∞`, is the row's maximum. -/
theorem reduce_max_row (f : S8192x8192.Idx → EReal) (g : Fin 8192 → Fin 8192 → EReal)
    (init : S_.Idx → EReal) (hinit : init (Shape.Idx.first h_S_) = Cert.Spec.negInf)
    (hfg : ∀ i k : Fin 8192, f (ix2 i k) = g i k) (i : Fin 8192) :
    Host.reduce (α := EReal) max f init reducesTo_S8192x8192_S8192_d1 h_S_ (ix1 i) = Cert.Spec.rowMax g i := by
  rw [Host.reduce_eq_fold_single max _ _ reducesTo_S8192x8192_S8192_d1 (by decide) h_S_ (ix1 i), hinit]
  unfold Cert.Spec.rowMax
  exact Finset.fold_congr (fun k _ => (congrArg f (lift_row i k)).trans (hfg i k))

theorem call0_v2_apply (x0 x1 : Arg) (i : Fin 8192) :
    val_main_call0_v2 (F := Ideal) x0 x1 (ix1 i)
      = max Cert.Spec.negInf (Cert.Spec.rowMax (sim x0 x1) i) := by
  rw [val_main_call0_v2_apply, val_main_call0_v1_apply, val_main_call0_cst_0_apply]
  unfold val_main_call0_v0
  refine congrArg (max Cert.Spec.negInf) ?_
  exact reduce_max_row _ _ _ rfl (v18_apply x0 x1) i

theorem call0_v5_apply (x0 x1 : Arg) (i j : Fin 8192) :
    val_main_call0_v5 (F := Ideal) x0 x1 (ix2 i j)
      = sim x0 x1 i j - max Cert.Spec.negInf (Cert.Spec.rowMax (sim x0 x1) i) := by
  rw [val_main_call0_v5_apply, val_main_call0_v4_apply, val_main_call0_v3_apply, v18_apply]
  have e : idx_main_call0_v3 (idx_main_call0_v4 (ix2 i j)) = ix1 i :=
    funext fun a => Fin.ext (by match a with | ⟨0, _⟩ => rfl)
  rw [e, call0_v2_apply, Ideal.subf_def]

theorem v20_apply (x0 x1 : Arg) (i j : Fin 8192) :
    val_main_v20 (F := Ideal) x0 x1 (ix2 i j) = Cert.Spec.logSoftmax (sim x0 x1) i j := by
  rw [val_main_v20_apply, val_main_call0_v10_apply, val_main_call0_v9_apply, val_main_call0_v8_apply,
    val_main_call0_v7_apply, val_main_call0_cst_1_apply, call0_v5_apply]
  have e : ∀ k : Fin 8192, idx_main_call0_v7 (idx_main_call0_v8 (idx_main_call0_v10 (ix2 i j))) k = ix2 i k :=
    fun k => funext fun a => Fin.ext (by match a with | ⟨0, _⟩ => rfl | ⟨1, _⟩ => rfl)
  unfold Cert.Spec.logSoftmax
  simp only [e, val_main_call0_v6_apply, call0_v5_apply, Ideal.hostUnary_exp_def, Ideal.hostUnary_log_def,
    Ideal.subf_def, Ideal.ofBits_def, Ideal.ofBits_zero_f32, zero_add]

/-! ## The same call on the transposed similarity matrix -/

/-- The transposed similarity. -/
abbrev simT (x0 x1 : Arg) : Fin 8192 → Fin 8192 → EReal := fun a b => sim x0 x1 b a

theorem v21_apply' (x0 x1 : Arg) (i j : Fin 8192) :
    val_main_v21 (F := Ideal) x0 x1 (ix2 i j) = simT x0 x1 i j := v21_apply x0 x1 i j

theorem call1_v2_apply (x0 x1 : Arg) (i : Fin 8192) :
    val_main_call1_v2 (F := Ideal) x0 x1 (ix1 i)
      = max Cert.Spec.negInf (Cert.Spec.rowMax (simT x0 x1) i) := by
  rw [val_main_call1_v2_apply, val_main_call1_v1_apply, val_main_call1_cst_0_apply]
  unfold val_main_call1_v0
  refine congrArg (max Cert.Spec.negInf) ?_
  exact reduce_max_row _ _ _ rfl (v21_apply' x0 x1) i

theorem call1_v5_apply (x0 x1 : Arg) (i j : Fin 8192) :
    val_main_call1_v5 (F := Ideal) x0 x1 (ix2 i j)
      = simT x0 x1 i j - max Cert.Spec.negInf (Cert.Spec.rowMax (simT x0 x1) i) := by
  rw [val_main_call1_v5_apply, val_main_call1_v4_apply, val_main_call1_v3_apply, v21_apply']
  have e : idx_main_call1_v3 (idx_main_call1_v4 (ix2 i j)) = ix1 i :=
    funext fun a => Fin.ext (by match a with | ⟨0, _⟩ => rfl)
  rw [e, call1_v2_apply, Ideal.subf_def]

theorem v22_apply (x0 x1 : Arg) (i j : Fin 8192) :
    val_main_v22 (F := Ideal) x0 x1 (ix2 i j) = Cert.Spec.logSoftmax (simT x0 x1) i j := by
  rw [val_main_v22_apply, val_main_call1_v10_apply, val_main_call1_v9_apply, val_main_call1_v8_apply,
    val_main_call1_v7_apply, val_main_call1_cst_1_apply, call1_v5_apply]
  have e : ∀ k : Fin 8192, idx_main_call1_v7 (idx_main_call1_v8 (idx_main_call1_v10 (ix2 i j))) k = ix2 i k :=
    fun k => funext fun a => Fin.ext (by match a with | ⟨0, _⟩ => rfl | ⟨1, _⟩ => rfl)
  unfold Cert.Spec.logSoftmax
  simp only [e, val_main_call1_v6_apply, call1_v5_apply, Ideal.hostUnary_exp_def, Ideal.hostUnary_log_def,
    Ideal.subf_def, Ideal.ofBits_def, Ideal.ofBits_zero_f32, zero_add]

/-! ## The diagonal gather -/

/-- A row number below 8192, written as a 32-bit word, reads back as itself when the word is read signed. -/
theorem toInt_row (r : Fin 8192) : (BitVec.ofNat 32 r.val).toInt = (r.val : Int) := by
  have h := r.isLt
  have hn : (BitVec.ofNat 32 r.val).toNat = r.val := by
    rw [BitVec.toNat_ofNat]; exact Nat.mod_eq_of_lt (by omega)
  rw [BitVec.toInt_eq_toNat_cond, hn]
  rw [if_pos (by omega)]

/-- A gather whose start-index table holds `(r, r)` in row `r` reads the diagonal. -/
theorem gather_diag {α : Type} (x : S8192x8192.Idx → α) (idx : IVec S8192x2 32)
    (hidx : ∀ (r : Fin 8192) (c : Fin 2), idx (ix2 r c) = BitVec.ofNat 32 r.val) (r : Fin 8192) :
    Host.gather gather_S8192x8192_S8192x2_S8192_n_01_n_n_01_1_11 x idx (ix1 r) = x (ix2 r r) := by
  unfold Host.gather
  congr 1
  funext a
  refine Fin.ext ?_
  show gather_S8192x8192_S8192x2_S8192_n_01_n_n_01_1_11.start (ix1 r) idx a
      + gather_S8192x8192_S8192x2_S8192_n_01_n_n_01_1_11.batchCoord (ix1 r) a
      + gather_S8192x8192_S8192x2_S8192_n_01_n_n_01_1_11.offCoord (ix1 r) a = _
  have hmem : a ∈ gather_S8192x8192_S8192x2_S8192_n_01_n_n_01_1_11.startIndexMap := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  have hsi : gather_S8192x8192_S8192x2_S8192_n_01_n_n_01_1_11.siIdx (ix1 r)
      ⟨List.idxOf a gather_S8192x8192_S8192x2_S8192_n_01_n_n_01_1_11.startIndexMap, List.idxOf_lt_length_iff.2 hmem⟩
        = ix2 r a := by
    funext b; refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
  rw [hsi, hidx, toInt_row]
  have h := r.isLt
  match a with
  | ⟨0, _⟩ => show min (Int.toNat (r.val : Int)) (8192 - 1) = r.val; rw [Int.toNat_natCast]; omega
  | ⟨1, _⟩ => show min (Int.toNat (r.val : Int)) (8192 - 1) = r.val; rw [Int.toNat_natCast]; omega

/-- The row-number word is not negative, so a select on "negative" keeps it (and not its wrap-around by 8192). -/
theorem select_row (r : Fin 8192) (w : BitVec 32) :
    Scalar.select (IntOp.cmpi .slt (BitVec.ofNat 32 r.val) 0#32) w (BitVec.ofNat 32 r.val) = BitVec.ofNat 32 r.val := by
  have hs : (BitVec.ofNat 32 r.val).slt 0#32 = false := by
    unfold BitVec.slt
    rw [toInt_row]
    exact decide_eq_false (by simp)
  have h : IntOp.cmpi .slt (BitVec.ofNat 32 r.val) 0#32 = 0#1 := by
    show BitVec.ofBool ((BitVec.ofNat 32 r.val).slt 0#32) = 0#1
    rw [hs]; rfl
  rw [h, select_zero]

/-! ## The tables of start indices: row `r` holds `(r, r)` -/

theorem v27_apply (r : Fin 8192) : val_main_v27 (F := Ideal) (ix1 r) = BitVec.ofNat 32 r.val := by
  rw [val_main_v27_apply, val_main_v24_apply, val_main_v23_apply, val_main_c_apply, val_main_v19_apply]
  exact select_row r _

theorem v32_apply (r : Fin 8192) : val_main_v32 (F := Ideal) (ix1 r) = BitVec.ofNat 32 r.val := by
  rw [val_main_v32_apply, val_main_v29_apply, val_main_v28_apply, val_main_c_5_apply, val_main_v19_apply]
  exact select_row r _

theorem v35_apply (r : Fin 8192) (c : Fin 2) :
    val_main_v35 (F := Ideal) (ix2 r c) = BitVec.ofNat 32 r.val := by
  unfold val_main_v35
  match c with
  | ⟨0, _⟩ =>
    rw [concatenate_pair_apply_left _ _ _ concatenates_S8192x1_S8192x1_S8192x2_d1 _ rfl (ix2 r (0 : Fin 1))
      (fun b => by match b with | ⟨0, _⟩ => rfl | ⟨1, _⟩ => rfl), val_main_v33_apply]
    have e : idx_main_v33 (ix2 r (0 : Fin 1)) = ix1 r := funext fun a => Fin.ext (by match a with | ⟨0, _⟩ => rfl)
    rw [e, v27_apply]
  | ⟨1, _⟩ =>
    rw [concatenate_pair_apply_right _ _ _ concatenates_S8192x1_S8192x1_S8192x2_d1 _ rfl rfl (ix2 r (0 : Fin 1))
      (fun b hb => by match b with | ⟨0, _⟩ => rfl | ⟨1, _⟩ => exact absurd rfl hb) rfl, val_main_v34_apply]
    have e : idx_main_v34 (ix2 r (0 : Fin 1)) = ix1 r := funext fun a => Fin.ext (by match a with | ⟨0, _⟩ => rfl)
    rw [e, v32_apply]

theorem v44_apply (r : Fin 8192) : val_main_v44 (F := Ideal) (ix1 r) = BitVec.ofNat 32 r.val := by
  rw [val_main_v44_apply, val_main_v41_apply, val_main_v40_apply, val_main_c_9_apply, val_main_v19_apply]
  exact select_row r _

theorem v49_apply (r : Fin 8192) : val_main_v49 (F := Ideal) (ix1 r) = BitVec.ofNat 32 r.val := by
  rw [val_main_v49_apply, val_main_v46_apply, val_main_v45_apply, val_main_c_11_apply, val_main_v19_apply]
  exact select_row r _

theorem v52_apply (r : Fin 8192) (c : Fin 2) :
    val_main_v52 (F := Ideal) (ix2 r c) = BitVec.ofNat 32 r.val := by
  unfold val_main_v52
  match c with
  | ⟨0, _⟩ =>
    rw [concatenate_pair_apply_left _ _ _ concatenates_S8192x1_S8192x1_S8192x2_d1 _ rfl (ix2 r (0 : Fin 1))
      (fun b => by match b with | ⟨0, _⟩ => rfl | ⟨1, _⟩ => rfl), val_main_v50_apply]
    have e : idx_main_v50 (ix2 r (0 : Fin 1)) = ix1 r := funext fun a => Fin.ext (by match a with | ⟨0, _⟩ => rfl)
    rw [e, v44_apply]
  | ⟨1, _⟩ =>
    rw [concatenate_pair_apply_right _ _ _ concatenates_S8192x1_S8192x1_S8192x2_d1 _ rfl rfl (ix2 r (0 : Fin 1))
      (fun b hb => by match b with | ⟨0, _⟩ => rfl | ⟨1, _⟩ => exact absurd rfl hb) rfl, val_main_v51_apply]
    have e : idx_main_v51 (ix2 r (0 : Fin 1)) = ix1 r := funext fun a => Fin.ext (by match a with | ⟨0, _⟩ => rfl)
    rw [e, v49_apply]

/-! ## The two gathers read the diagonals -/

theorem v36_apply (x0 x1 : Arg) (r : Fin 8192) :
    val_main_v36 (F := Ideal) x0 x1 (ix1 r) = Cert.Spec.logSoftmax (sim x0 x1) r r := by
  unfold val_main_v36
  rw [gather_diag _ _ v35_apply r, v20_apply]

theorem v53_apply (x0 x1 : Arg) (r : Fin 8192) :
    val_main_v53 (F := Ideal) x0 x1 (ix1 r) = Cert.Spec.logSoftmax (simT x0 x1) r r := by
  unfold val_main_v53
  rw [gather_diag _ _ v52_apply r, v22_apply]

/-! ## The two means and the loss -/

/-- A sum over the rank-1 index set is the sum over its one coordinate. -/
theorem sum_idx1 (f : S8192.Idx → EReal) : ∑ j : S8192.Idx, f j = ∑ r : Fin 8192, f (ix1 r) := by
  let e : Fin 8192 ≃ S8192.Idx :=
    { toFun := ix1, invFun := fun j => j 0, left_inv := fun _ => rfl, right_inv := fun j => (eq_ix1 j).symm }
  exact (Equiv.sum_comp e f).symm

/-- The reference program's result, as a function of its two arguments, is the textbook loss of the two
    normalised argument matrices. -/
theorem result_eq (x0 x1 : Arg) :
    val_main_v58 (F := Ideal) x0 x1
      = fun _ => Cert.Spec.lossR (Cert.Spec.nrm (Cert.Spec.mat x0)) (Cert.Spec.nrm (Cert.Spec.mat x1)) := by
  funext i
  rw [val_main_v58_apply, val_main_v57_apply, val_main_v39_apply, val_main_v56_apply, val_main_v38_apply,
    val_main_v55_apply, val_main_v37_apply, val_main_v54_apply, val_main_cst_7_apply, val_main_cst_13_apply,
    val_main_cst_8_apply, val_main_cst_14_apply, val_main_cst_15_apply, sum_idx1, sum_idx1]
  unfold Cert.Spec.lossR
  simp only [v36_apply, v53_apply, Ideal.mulf_def, Ideal.addf_def, Ideal.hostNegf_def, Ideal.negf_def,
    Ideal.hostDivf_def, Ideal.ofBits_def, Ideal.ofBits_zero_f32, zero_add]

end Cert.RefValue

end
-- ==== Proof.lean ====
/-
  The certificate: a one-sweep tiled kernel for the symmetric contrastive loss of two embedding matrices agrees,
  over the extended reals, with the textbook reference.

  Both programs normalise every row of the two [8192, 1024] arguments by its Euclidean norm (floored at a tiny
  positive constant) and form the similarity matrix s = 2 · (x̂ ŷᵀ).  The reference takes the row-wise log-softmax of
  s and of sᵀ (each row shifted by its maximum), reads the two diagonals, and returns the average of the two negated
  means.  The kernel never forms the log-softmax: in one pass over 8×8 tiles it accumulates, with the FIXED shift 3
  inside every exponential, the row sums Σⱼ exp(sᵢⱼ − 3) (carried across a row of tiles), the per-tile column sums
  (added over the eight row blocks afterwards), and the diagonal sᵢᵢ; the row and column log-sum-exp are
  log(sum) + 3, and the loss is assembled from diag − lse.

  The two agree because, for real numbers, log Σⱼ exp(aⱼ − c) + c = log Σⱼ exp(aⱼ) for EVERY real shift c — the fixed
  3 of the kernel or the row maximum of the reference — and because sums over the extended reals may be regrouped
  freely (tile by tile, or all at once).  The shift law needs real entries: finite inputs give real normalised rows
  (the floor keeps the divisor positive), hence real similarities, positive sums and real logarithms; this is where
  the precondition is used.

  The pieces: Spec (both forms of the loss as functions of the arguments), Algebra (the two forms agree on real
  inputs), Prefix (the normalisation as the kernel's host prologue computes it; finiteness of the inputs), Pieces /
  SweepDefs / Sweep (what each grid point leaves, and the induction over the points), Payloads / Values (the body's
  arithmetic and the carried quantities read entry by entry), Blocks (the output arrays from their blocks), Tail (the
  host epilogue), KernelValue (the kernel's run ends at the swept form), RefRun / RefValue (the reference's run ends at
  the textbook form).
-/
import proofs.«142358_j14362370638446_2_alg».proof.Defs
import proofs.«142358_j14362370638446_2_alg».proof.Proof.Gen.Kernel
import proofs.«142358_j14362370638446_2_alg».proof.Proof.Gen.Kernel.Skeleton
import proofs.«142358_j14362370638446_2_alg».proof.Proof.Gen.Kernel.Launch
import proofs.«142358_j14362370638446_2_alg».proof.Proof.Gen.Kernel.Points
import proofs.«142358_j14362370638446_2_alg».proof.Proof.Gen.Kernel.Frame
import proofs.«142358_j14362370638446_2_alg».proof.Proof.Gen.KernelIdeal
import proofs.«142358_j14362370638446_2_alg».proof.Proof.Gen.KernelIdeal.Skeleton
import proofs.«142358_j14362370638446_2_alg».proof.Proof.Gen.KernelIdeal.Launch
import proofs.«142358_j14362370638446_2_alg».proof.Proof.Gen.KernelIdeal.Points
import proofs.«142358_j14362370638446_2_alg».proof.Proof.Gen.KernelIdeal.Frame
import proofs.«142358_j14362370638446_2_alg».proof.Proof.Gen.ReferenceIdeal
import proofs.«142358_j14362370638446_2_alg».proof.Proof.Gen.Pre_finite_inputs
import proofs.«142358_j14362370638446_2_alg».proof.Proof.Algebra
import proofs.«142358_j14362370638446_2_alg».proof.Proof.Prefix
import proofs.«142358_j14362370638446_2_alg».proof.Proof.KernelValue
import proofs.«142358_j14362370638446_2_alg».proof.Proof.RefRun
import proofs.«142358_j14362370638446_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.RefRun.run (F := Ideal) m ρ)

/-- From memories agreeing on the two arguments, both finite: the kernel ends at the swept form of the loss, the
    reference at the textbook form, and on real inputs the two forms are one extended real. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => fun _ => Cert.Spec.lossK
      (Cert.Spec.nrm (Cert.Spec.mat (m ((c.tc : Thread Cert.KernelIdeal.nD Cert.KernelIdeal.τ).loc Cert.KernelIdeal.main_arg0))))
      (Cert.Spec.nrm (Cert.Spec.mat (m ((c.tc : Thread Cert.KernelIdeal.nD Cert.KernelIdeal.τ).loc Cert.KernelIdeal.main_arg1)))),
    Cert.KernelIdeal.KernelValue.run m ρ, ?_⟩
  refine (θ_run Cert.ReferenceIdeal.defs _ _).mono (fun _ h c => ⟨(h c).1.trans ?_, (h c).2⟩)
    (Cert.RefRun.run (F := Ideal) m' ρ')
  rw [Cert.RefValue.result_eq, (hagree c).1, (hagree c).2]
  obtain ⟨hA, hB⟩ := Cert.KernelIdeal.Prefix.args_real m c hpre
  exact funext fun _ => (Cert.Algebra.lossK_eq_lossR _ _ hA hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
